-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x256 .f32) (main_arg1 : IVec S2x3200000 32) (main_arg2 : FVec F S3200000 .f32) (main_arg3 : FVec F S256x16 .f32) (main_arg4 : FVec F S16 .f32) (main_arg5 : FVec F S16x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x16 .f32 := Host.absf main_arg3
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x256 : Shape := ⟨2, ![5000, 256]⟩
abbrev S5000x16 : Shape := ⟨2, ![5000, 16]⟩
abbrev S3300000x16 : Shape := ⟨2, ![3300000, 16]⟩
abbrev S3301376x16 : Shape := ⟨2, ![3301376, 16]⟩
abbrev S3301376 : Shape := ⟨1, ![3301376]⟩
abbrev S8192x16 : Shape := ⟨2, ![8192, 16]⟩
abbrev S8192 : Shape := ⟨1, ![8192]⟩
abbrev S8192x1 : Shape := ⟨2, ![8192, 1]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S3301376x40 : Shape := ⟨2, ![3301376, 40]⟩
abbrev S8192x40 : Shape := ⟨2, ![8192, 40]⟩
abbrev S1x40 : Shape := ⟨2, ![1, 40]⟩
abbrev S5000 : Shape := ⟨1, ![5000]⟩
abbrev S5000x1 : Shape := ⟨2, ![5000, 1]⟩

abbrev nBuf : Space → Nat
  | .hbm => 97
  | .vmem => 32
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S_, .i32⟩
  | .hbm, ⟨60, _⟩ => ⟨S_, .f32⟩
  | .hbm, ⟨61, _⟩ => ⟨S3301376x16, .f32⟩
  | .hbm, ⟨62, _⟩ => ⟨S_, .i32⟩
  | .hbm, ⟨63, _⟩ => ⟨S_, .f32⟩
  | .hbm, ⟨64, _⟩ => ⟨S3301376, .f32⟩
  | .hbm, ⟨65, _⟩ => ⟨S3301376x16, .f32⟩
  | .hbm, ⟨66, _⟩ => ⟨S3300000x16, .f32⟩
  | .hbm, ⟨67, _⟩ => ⟨S_, .f32⟩
  | .hbm, ⟨68, _⟩ => ⟨S100000x16, .f32⟩
  | .hbm, ⟨69, _⟩ => ⟨S3300000x1, .i32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S100000x40, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x40, .f32⟩
  | .hbm, ⟨83, _⟩ => ⟨S_, .i32⟩
  | .hbm, ⟨84, _⟩ => ⟨S_, .f32⟩
  | .hbm, ⟨85, _⟩ => ⟨S3301376x40, .f32⟩
  | .hbm, ⟨86, _⟩ => ⟨S_, .i32⟩
  | .hbm, ⟨87, _⟩ => ⟨S_, .f32⟩
  | .hbm, ⟨88, _⟩ => ⟨S3301376, .f32⟩
  | .hbm, ⟨89, _⟩ => ⟨S3301376x40, .f32⟩
  | .hbm, ⟨90, _⟩ => ⟨S3300000x40, .f32⟩
  | .hbm, ⟨91, _⟩ => ⟨S_, .f32⟩
  | .hbm, ⟨92, _⟩ => ⟨S100000x40, .f32⟩
  | .hbm, ⟨93, _⟩ => ⟨S3300000x1, .i32⟩
  | .hbm, ⟨94, _⟩ => ⟨S100000x40, .f32⟩
  | .hbm, ⟨95, _⟩ => ⟨S1x40, .f32⟩
  | .hbm, ⟨96, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S8192x16, .f32⟩
  | .local _ .vmem, ⟨6, _⟩ => ⟨S8192x16, .f32⟩
  | .local _ .vmem, ⟨7, _⟩ => ⟨S8192, .f32⟩
  | .local _ .vmem, ⟨8, _⟩ => ⟨S8192, .f32⟩
  | .local _ .vmem, ⟨9, _⟩ => ⟨S8192x16, .f32⟩
  | .local _ .vmem, ⟨10, _⟩ => ⟨S8192x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x40, .f32⟩
  | .local _ .vmem, ⟨19, _⟩ => ⟨S5000x40, .f32⟩
  | .local _ .vmem, ⟨20, _⟩ => ⟨S5000x40, .f32⟩
  | .local _ .vmem, ⟨21, _⟩ => ⟨S8192x40, .f32⟩
  | .local _ .vmem, ⟨22, _⟩ => ⟨S8192x40, .f32⟩
  | .local _ .vmem, ⟨23, _⟩ => ⟨S8192, .f32⟩
  | .local _ .vmem, ⟨24, _⟩ => ⟨S8192, .f32⟩
  | .local _ .vmem, ⟨25, _⟩ => ⟨S8192x40, .f32⟩
  | .local _ .vmem, ⟨26, _⟩ => ⟨S8192x40, .f32⟩
  | .local _ .vmem, ⟨27, _⟩ => ⟨S5000x40, .f32⟩
  | .local _ .vmem, ⟨28, _⟩ => ⟨S5000x40, .f32⟩
  | .local _ .vmem, ⟨29, _⟩ => ⟨S1x40, .f32⟩
  | .local _ .vmem, ⟨30, _⟩ => ⟨S5000x40, .f32⟩
  | .local _ .vmem, ⟨31, _⟩ => ⟨S5000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_call1_v0 : Ref sig .tc := ⟨.hbm, 60, rfl⟩
abbrev main_v40 : Ref sig .tc := ⟨.hbm, 61, rfl⟩
abbrev main_c_9 : Ref sig .tc := ⟨.hbm, 62, rfl⟩
abbrev main_call2_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_call3_v0 : Ref sig .tc := ⟨.hbm, 84, rfl⟩
abbrev main_v57 : Ref sig .tc := ⟨.hbm, 85, rfl⟩
abbrev main_c_14 : Ref sig .tc := ⟨.hbm, 86, rfl⟩
abbrev main_call4_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![403], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  ![arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  pads_S3300000x16_S3301376x16_013760_000 : S3300000x16.Pads (![0, 0] : Fin 2 → Nat) ![1376, 0] ![0, 0] S3301376x16
  h_S_ : 0 < S_.numel
  pads_S3300000_S3301376_013760 : S3300000.Pads (![0] : Fin 1 → Nat) ![1376] ![0] S3301376
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  broadcasts_S8192x1_S8192x16 : S8192x1.Broadcasts S8192x16
  slices_S3301376x16_S3300000x16_0_0 : S3301376x16.Slices ![0, 0] S3300000x16
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  pads_S3300000x40_S3301376x40_013760_000 : S3300000x40.Pads (![0, 0] : Fin 2 → Nat) ![1376, 0] ![0, 0] S3301376x40
  inb_S8192x40_S8192x40_0_0 : ∀ a, (![0, 0] : Fin 2 → Nat) a + S8192x40.size a ≤ S8192x40.size a
  h_S8192x40 : 0 < S8192x40.numel
  shapeCasts_S8192x40_S8192x40 : S8192x40.ShapeCasts S8192x40
  broadcasts_S8192x1_S8192x40 : S8192x1.Broadcasts S8192x40
  slices_S3301376x40_S3300000x40_0_0 : S3301376x40.Slices ![0, 0] S3300000x40
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x16_S5000x16_1_0_0_1_n_n_wf : DotDims.WF S5000x256 S256x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S3301376x16.size a
  hwx1_0 : ∀ i : grid1.Coords, EltTy.bits .f32 = 32 ∨ (Rect.block (s := S3301376x16) S8192x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S3301376.size a
  hwx1_1 : ∀ i : grid1.Coords, EltTy.bits .f32 = 32 ∨ (Rect.block (s := S3301376) S8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S3301376x16.size a
  hwx1_2 : ∀ i : grid1.Coords, EltTy.bits .f32 = 32 ∨ (Rect.block (s := S3301376x16) S8192x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x40.size a ≤ S16x40.size a
  hwx3_1 : ∀ i : grid3.Coords, EltTy.bits .f32 = 32 ∨ (Rect.block (s := S16x40) S16x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x40.size a ≤ S3301376x40.size a
  hwx4_0 : ∀ i : grid4.Coords, EltTy.bits .f32 = 32 ∨ (Rect.block (s := S3301376x40) S8192x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192.size a ≤ S3301376.size a
  hwx4_1 : ∀ i : grid4.Coords, EltTy.bits .f32 = 32 ∨ (Rect.block (s := S3301376) S8192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x40.size a ≤ S3301376x40.size a
  hwx4_2 : ∀ i : grid4.Coords, EltTy.bits .f32 = 32 ∨ (Rect.block (s := S3301376x40) S8192x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S8192x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S8192x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S8192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S8192x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v63) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x16 : Shape := ⟨2, ![256, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 107
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x16, .f32⟩
  | .hbm, ⟨4, _⟩ => ⟨S16, .f32⟩
  | .hbm, ⟨5, _⟩ => ⟨S16x40, .f32⟩
  | .hbm, ⟨6, _⟩ => ⟨S40, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x40, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x40, .f32⟩
  | .hbm, ⟨82, _⟩ => ⟨S3300000x1, .f32⟩
  | .hbm, ⟨83, _⟩ => ⟨S3300000x40, .f32⟩
  | .hbm, ⟨84, _⟩ => ⟨S3300000x40, .f32⟩
  | .hbm, ⟨85, _⟩ => ⟨S_, .f32⟩
  | .hbm, ⟨86, _⟩ => ⟨S100000x40, .f32⟩
  | .hbm, ⟨87, _⟩ => ⟨S3300000x1, .i32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x40, .f32⟩
  | .hbm, ⟨106, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x16_S100000x16_1_0_0_1_n_n_wf : DotDims.WF S100000x256 S256x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.LibCat2.lean ====
/-
  A two-operand concatenation as a function of its two operands.

  `concatenate` takes its operands as a list of (shape, array) pairs and a side condition stated of that list, so a term
  rewriting pass cannot rewrite an operand in place: the side condition's statement would change with it. `cat2` is the
  same array with the side condition stated of the two shapes alone; a two-operand concatenation IS `cat2` of its operands,
  by unfolding. With that equation in a simp set, a pass that reads host operations' results (Lib/StableHlo/Run.lean
  `after_results_simp`'s lemmas) continues into the operands of a concatenation instead of stopping at it.
-/
import Idealize.ShloMosaic.Lib.StableHlo.Run

namespace Idealize.ShloMosaic

/-- A concatenation of two arrays along axis `a` as a function of the two arrays: `concatenate` of the two-element list, the side
    condition stated of the two shapes alone. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- A two-operand concatenation is `cat2` of its operands. -/
theorem concatenate_pair_eq {α : Type} (t : Shape) (a : Fin t.rank) (s1 s2 : Shape) (x : s1.Idx → α) (y : s2.Idx → α)
    (h : Shape.Concatenates (List.map (fun p : (s : Shape) × (s.Idx → α) => p.1) [⟨s1, x⟩, ⟨s2, y⟩]) t a) :
    concatenate t a [⟨s1, x⟩, ⟨s2, y⟩] h = cat2 t a s1 s2 h x y := rfl

/-- The results of a straight line of host operations by one simp pass that also goes under two-operand concatenations:
    `after_results_simp` (Lib/StableHlo/Run.lean) with `concatenate_pair_eq` added. -/
macro "after_results_cat" : tactic =>
  `(tactic| (simp (disch := decide) only [StableHlo.after_cons, StableHlo.after_nil,
      StableHlo.nullary_result', StableHlo.unary_result', StableHlo.binary_result', StableHlo.ternary_result', StableHlo.quaternary_result',
      StableHlo.reshape_result', StableHlo.nary4_result', StableHlo.nary_result', StableHlo.unaryIndexed_result', StableHlo.binaryIndexed_result',
      StableHlo.nullary_result_ne', StableHlo.unary_result_ne', StableHlo.binary_result_ne', StableHlo.ternary_result_ne',
      StableHlo.quaternary_result_ne', StableHlo.reshape_result_ne', StableHlo.nary_result_ne', StableHlo.unaryIndexed_result_ne',
      StableHlo.binaryIndexed_result_ne', concatenate_pair_eq]))

end Idealize.ShloMosaic
-- ==== Proof.RefPrefix.lean ====
/-
  The normalisation prefix of the plain program, read in seven short stages. Its 42 host operations build the two
  edge columns with self loops appended, the weights with unit weights appended, the weighted degrees, their inverse
  square roots where positive, and the per-edge factor. The operations are cut into stages where a value is used again, and each stage's results are the
  reference's own stage functions of the two arguments they depend on; no operation writes an argument.
-/
import proofs.«139049_j20813411516894_2_alg».proof.Proof.RefRun
import proofs.«139049_j20813411516894_2_alg».proof.Proof.RefRead
import proofs.«139049_j20813411516894_2_alg».proof.Proof.LibCat2

set_option maxRecDepth 65536

noncomputable section

namespace Cert.ReferenceIdeal.RefPrefix

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

section Pieces
variable {F : FTy → Type} [FloatOps F]

/-- The edge lists with self loops, the weights, the degrees and the per-edge normalisation (operations 1 to 42). -/
abbrev P0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-! ## The prefix cut where a value is used again -/

/-- The source column of the edge list with the self loops appended (and the node numbering it appends). -/
abbrev Q0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The target column with the self loops appended. -/
abbrev Q1 : List (HloOp τ sig (Elt F)) :=
  [ unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The edge weights with a unit weight per self loop appended. -/
abbrev Q2 : List (HloOp τ sig (Elt F)) :=
  [ nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)) ]

/-- The weighted degree of every node: the weights summed per target. -/
abbrev Q3 : List (HloOp τ sig (Elt F)) :=
  [ nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]

/-- Which degrees are positive, their inverse square roots, and the zero to put elsewhere. -/
abbrev Q4 : List (HloOp τ sig (Elt F)) :=
  [ nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- The inverse square root of the degree where it is positive, zero elsewhere. -/
abbrev Q5 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- The per-edge factor: the weight times the two end points' normalisations, each looked up with the index wrapped into range. -/
abbrev Q6 : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v8 main_v23 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v15 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The prefix is the seven stages in order. -/
theorem P0_split : (P0 : List (HloOp τ sig (Elt F))) = Q0 ++ (Q1 ++ (Q2 ++ (Q3 ++ (Q4 ++ (Q5 ++ Q6))))) := rfl

/-- The contents after a concatenation are the contents after the second part from what the first part leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Pieces

variable (m : (ℓ : Loc nD τ sig) → Buf (Elt Ideal) ℓ) (c : Dev nD)

/-- The seven argument arrays as launched. -/
abbrev B0 := m ((c.tc : Thread nD τ).loc main_arg0)
abbrev B1 := m ((c.tc : Thread nD τ).loc main_arg1)
abbrev B2 := m ((c.tc : Thread nD τ).loc main_arg2)
abbrev B3 := m ((c.tc : Thread nD τ).loc main_arg3)
abbrev B4 := m ((c.tc : Thread nD τ).loc main_arg4)
abbrev B5 := m ((c.tc : Thread nD τ).loc main_arg5)
abbrev B6 := m ((c.tc : Thread nD τ).loc main_arg6)

/-- The buffers after the prefix. -/
def U0 : Valuation τ sig (Elt Ideal) := after P0 (launchContents m c)

/-- The buffers after each stage. -/
def T0 : Valuation τ sig (Elt Ideal) := after Q0 (launchContents m c)
def T1 : Valuation τ sig (Elt Ideal) := after Q1 (T0 m c)
def T2 : Valuation τ sig (Elt Ideal) := after Q2 (T1 m c)
def T3 : Valuation τ sig (Elt Ideal) := after Q3 (T2 m c)
def T4 : Valuation τ sig (Elt Ideal) := after Q4 (T3 m c)
def T5 : Valuation τ sig (Elt Ideal) := after Q5 (T4 m c)
def T6 : Valuation τ sig (Elt Ideal) := after Q6 (T5 m c)

theorem U0_eq : U0 m c = T6 m c := by
  unfold U0 T6 T5 T4 T3 T2 T1 T0
  rw [P0_split, after_append, after_append, after_append, after_append, after_append, after_append]

macro "rd0" : tactic => `(tactic| (unfold T0; dsimp only [Q0]; after_results_cat))
macro "rd1" : tactic => `(tactic| (unfold T1; dsimp only [Q1]; after_results_cat))
macro "rd2" : tactic => `(tactic| (unfold T2; dsimp only [Q2]; after_results_cat))
macro "rd3" : tactic => `(tactic| (unfold T3; dsimp only [Q3]; after_results_cat))
macro "rd4" : tactic => `(tactic| (unfold T4; dsimp only [Q4]; after_results_cat))
macro "rd5" : tactic => `(tactic| (unfold T5; dsimp only [Q5]; after_results_cat))
macro "rd6" : tactic => `(tactic| (unfold T6; dsimp only [Q6]; after_results_cat))

/-! ## Stage 0: the source column -/
theorem t0_v3 : T0 m c (Proc.devRef .tc main_v3) = val_main_v3 (F := Ideal) (B1 m c) := by rd0 <;> rfl
theorem t0_v0 : T0 m c (Proc.devRef .tc main_v0) = val_main_v0 (F := Ideal) := by rd0 <;> rfl
theorem t0_arg1 : T0 m c (Proc.devRef .tc main_arg1) = B1 m c := by rd0 <;> rfl
theorem t0_arg2 : T0 m c (Proc.devRef .tc main_arg2) = B2 m c := by rd0 <;> rfl

/-! ## Stage 1: the target column -/
theorem t1_v6 : T1 m c (Proc.devRef .tc main_v6) = val_main_v6 (F := Ideal) (B1 m c) := by
  rd1
  rw [t0_arg1, t0_v0]
  rfl
theorem t1_v3 : T1 m c (Proc.devRef .tc main_v3) = val_main_v3 (F := Ideal) (B1 m c) := by rd1; exact t0_v3 m c
theorem t1_arg2 : T1 m c (Proc.devRef .tc main_arg2) = B2 m c := by rd1; exact t0_arg2 m c

/-! ## Stage 2: the weights -/
theorem t2_v8 : T2 m c (Proc.devRef .tc main_v8) = val_main_v8 (F := Ideal) (B2 m c) := by
  rd2
  rw [t1_arg2]
  rfl
theorem t2_v3 : T2 m c (Proc.devRef .tc main_v3) = val_main_v3 (F := Ideal) (B1 m c) := by rd2; exact t1_v3 m c
theorem t2_v6 : T2 m c (Proc.devRef .tc main_v6) = val_main_v6 (F := Ideal) (B1 m c) := by rd2; exact t1_v6 m c

/-! ## Stage 3: the degrees -/
theorem t3_v11 : T3 m c (Proc.devRef .tc main_v11) = val_main_v11 (F := Ideal) (B1 m c) (B2 m c) := by
  rd3
  rw [t2_v6, t2_v8]
  rfl
theorem t3_v3 : T3 m c (Proc.devRef .tc main_v3) = val_main_v3 (F := Ideal) (B1 m c) := by rd3; exact t2_v3 m c
theorem t3_v6 : T3 m c (Proc.devRef .tc main_v6) = val_main_v6 (F := Ideal) (B1 m c) := by rd3; exact t2_v6 m c
theorem t3_v8 : T3 m c (Proc.devRef .tc main_v8) = val_main_v8 (F := Ideal) (B2 m c) := by rd3; exact t2_v8 m c

/-! ## Stage 4: positivity and the inverse square roots -/
theorem t4_v13 : T4 m c (Proc.devRef .tc main_v13) = val_main_v13 (F := Ideal) (B1 m c) (B2 m c) := by
  rd4
  rw [t3_v11]
  rfl
theorem t4_v14 : T4 m c (Proc.devRef .tc main_v14) = val_main_v14 (F := Ideal) (B1 m c) (B2 m c) := by
  rd4
  rw [t3_v11]
  rfl
theorem t4_cst_2 : T4 m c (Proc.devRef .tc main_cst_2) = val_main_cst_2 (F := Ideal) := by rd4 <;> rfl
theorem t4_v3 : T4 m c (Proc.devRef .tc main_v3) = val_main_v3 (F := Ideal) (B1 m c) := by rd4; exact t3_v3 m c
theorem t4_v6 : T4 m c (Proc.devRef .tc main_v6) = val_main_v6 (F := Ideal) (B1 m c) := by rd4; exact t3_v6 m c
theorem t4_v8 : T4 m c (Proc.devRef .tc main_v8) = val_main_v8 (F := Ideal) (B2 m c) := by rd4; exact t3_v8 m c

/-! ## Stage 5: the node normalisation -/

/-- The outlined select on variables: a zero broadcast over the nodes is chosen where the condition is unset; the
    buffers' contents pass between the operations unchanged. -/
theorem where_eq (a : (⟨S100000, .i1⟩ : BufTy).Contents (Elt Ideal)) (b : (⟨S100000, .f32⟩ : BufTy).Contents (Elt Ideal))
    (z : (⟨S_, .f32⟩ : BufTy).Contents (Elt Ideal)) :
    (TRef.of (sig := sig) (T := ⟨S100000, .f32⟩) main_v15).toBuf (Val := Elt Ideal)
      (select ((TRef.of (sig := sig) (T := ⟨S100000, .i1⟩) main_v13).ofBuf a)
        ((TRef.of (sig := sig) (T := ⟨S100000, .f32⟩) main_v14).ofBuf b)
        ((TRef.of (sig := sig) (T := ⟨S100000, .f32⟩) main_call0_v1).ofBuf
          ((TRef.of (sig := sig) (T := ⟨S100000, .f32⟩) main_call0_v1).toBuf
            (broadcastInDim S100000 ![] bcast_S_S100000
              ((TRef.of (sig := sig) (T := ⟨S_, .f32⟩) main_call0_v0).ofBuf
                ((TRef.of (sig := sig) (T := ⟨S_, .f32⟩) main_call0_v0).toBuf
                  (id ((TRef.of (sig := sig) (T := ⟨S_, .f32⟩) main_cst_2).ofBuf z))))))))
      = select a b (broadcastInDim S100000 ![] bcast_S_S100000 (id z)) := rfl

theorem t5_v15 : T5 m c (Proc.devRef .tc main_v15) = val_main_v15 (F := Ideal) (B1 m c) (B2 m c) := by
  rd5
  rw [t4_v13, t4_v14, t4_cst_2]
  unfold val_main_v15 val_main_call0_v1 val_main_call0_v0
  exact where_eq _ _ _
theorem t5_v3 : T5 m c (Proc.devRef .tc main_v3) = val_main_v3 (F := Ideal) (B1 m c) := by rd5; exact t4_v3 m c
theorem t5_v6 : T5 m c (Proc.devRef .tc main_v6) = val_main_v6 (F := Ideal) (B1 m c) := by rd5; exact t4_v6 m c
theorem t5_v8 : T5 m c (Proc.devRef .tc main_v8) = val_main_v8 (F := Ideal) (B2 m c) := by rd5; exact t4_v8 m c

/-! ## Stage 6: the per-edge factor -/
theorem t6_v31 : T6 m c (Proc.devRef .tc main_v31) = val_main_v31 (F := Ideal) (B1 m c) (B2 m c) := by
  rd6
  rw [t5_v15, t5_v3, t5_v6, t5_v8]
  rfl
theorem t6_v3 : T6 m c (Proc.devRef .tc main_v3) = val_main_v3 (F := Ideal) (B1 m c) := by rd6; exact t5_v3 m c
theorem t6_v6 : T6 m c (Proc.devRef .tc main_v6) = val_main_v6 (F := Ideal) (B1 m c) := by rd6; exact t5_v6 m c

/-! ## After the prefix -/
theorem u0_v3 : U0 m c (Proc.devRef .tc main_v3) = val_main_v3 (F := Ideal) (B1 m c) := by rw [U0_eq]; exact t6_v3 m c
theorem u0_v6 : U0 m c (Proc.devRef .tc main_v6) = val_main_v6 (F := Ideal) (B1 m c) := by rw [U0_eq]; exact t6_v6 m c
theorem u0_v31 : U0 m c (Proc.devRef .tc main_v31) = val_main_v31 (F := Ideal) (B1 m c) (B2 m c) := by
  rw [U0_eq]; exact t6_v31 m c

macro "rdU" : tactic => `(tactic| (unfold U0; dsimp only [P0]; after_results_cat))

/-- No operation of the prefix writes an argument. -/
theorem u0_arg0 : U0 m c (Proc.devRef .tc main_arg0) = B0 m c := by rdU <;> rfl
theorem u0_arg1 : U0 m c (Proc.devRef .tc main_arg1) = B1 m c := by rdU <;> rfl
theorem u0_arg2 : U0 m c (Proc.devRef .tc main_arg2) = B2 m c := by rdU <;> rfl
theorem u0_arg3 : U0 m c (Proc.devRef .tc main_arg3) = B3 m c := by rdU <;> rfl
theorem u0_arg4 : U0 m c (Proc.devRef .tc main_arg4) = B4 m c := by rdU <;> rfl
theorem u0_arg5 : U0 m c (Proc.devRef .tc main_arg5) = B5 m c := by rdU <;> rfl
theorem u0_arg6 : U0 m c (Proc.devRef .tc main_arg6) = B6 m c := by rdU <;> rfl

end Cert.ReferenceIdeal.RefPrefix

end
-- ==== Proof.RefChain.lean ====
/-
  The plain program's run read in four stretches. Its 100 host operations are cut where a value is needed again
  later: after the normalisation (the two edge lists with self loops and the per-edge factor), after the first layer
  (product, gather, scale, sum per target node, bias, clamp), after the second layer's sum and bias, and after the
  row-wise log-softmax. The buffers' contents after a concatenation of operations are the contents after the second
  part from what the first part leaves; each stretch's results are then read off as the reference's own stage
  functions of the seven arguments, and the arguments pass through every stretch unchanged.
-/
import proofs.«139049_j20813411516894_2_alg».proof.Proof.RefRun
import proofs.«139049_j20813411516894_2_alg».proof.Proof.RefRead
import proofs.«139049_j20813411516894_2_alg».proof.Proof.LibCat2
import proofs.«139049_j20813411516894_2_alg».proof.Proof.RefPrefix

set_option maxRecDepth 65536

noncomputable section

namespace Cert.ReferenceIdeal.RefChain

open Cert.ReferenceIdeal Cert.ReferenceIdeal.Gen Cert.ReferenceIdeal.Value Cert.ReferenceIdeal.Read
open Cert.ReferenceIdeal.RefPrefix
open Idealize.ShloMosaic Idealize.ShloMosaic.TcCoe Idealize.SL.Sem Idealize.ShloMosaic.StableHlo

section Pieces
variable {F : FTy → Type} [FloatOps F]

/-- The first layer: product, gather, scale, sum per target node, bias, clamp (operations 43 to 65). -/
abbrev P1 : List (HloOp τ sig (Elt F)) :=
  [ binary main_arg0 main_arg3 main_v32 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    nullary main_c_6 (constantI S_ 32 0#32),
    unary main_c_6 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]

/-- The second layer up to the bias (operations 66 to 85). -/
abbrev P2 : List (HloOp τ sig (Elt F)) :=
  [ binary main_v49 main_arg5 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_9 (constantI S_ 32 0#32),
    unary main_c_9 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x40 ![0, 1] bcast_S3300000x1_S3300000x40_0_1 : (⟨S3300000x1, .f32⟩ : BufTy).Contents (Elt F) → (⟨S3300000x40, .f32⟩ : BufTy).Contents (Elt F)),
    binary main_v57 main_v59 main_v60 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v61 (broadcastInDim S100000x40 ![] bcast_S_S100000x40 : (⟨S_, .f32⟩ : BufTy).Contents (Elt F) → (⟨S100000x40, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg6 main_v64 (broadcastInDim S1x40 ![1] bcast_S40_S1x40_1 : (⟨S40, .f32⟩ : BufTy).Contents (Elt F) → (⟨S1x40, .f32⟩ : BufTy).Contents (Elt F)),
    unary main_v64 main_v65 (broadcastInDim S100000x40 ![0, 1] bcast_S1x40_S100000x40_0_1 : (⟨S1x40, .f32⟩ : BufTy).Contents (Elt F) → (⟨S100000x40, .f32⟩ : BufTy).Contents (Elt F)),
    binary main_v63 main_v65 main_v66 (addf : (⟨S100000x40, .f32⟩ : BufTy).Contents (Elt F) → (⟨S100000x40, .f32⟩ : BufTy).Contents (Elt F) → (⟨S100000x40, .f32⟩ : BufTy).Contents (Elt F)) ]

/-- The rows' log-softmax (operations 86 to 100). -/
abbrev P3 : List (HloOp τ sig (Elt F)) :=
  [ TRef.nullary (TRef.of (T := ⟨S_, .f32⟩) main_call2_cst) (constant S_ .f32 0xFF800000#32),
    TRef.binary (TRef.of (T := ⟨S100000x40, .f32⟩) main_v66) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v66) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v67) subf ]

/-- The program's operations are the four stretches in order. -/
theorem ops_split : (ops : List (HloOp τ sig (Elt F))) = P0 ++ (P1 ++ (P2 ++ P3)) := rfl

end Pieces

/-! ## Transport along a typed reference's type equation

An operation of an outlined function reads and writes its buffers through typed references: contents are carried to the
buffer's own type and back along the reference's type equation. Carried there and back they are unchanged, whatever the
equation; and at a literal reference, whose type equation holds by computation, each single transport is the identity. -/

/-- Contents carried to a typed reference's buffer and back are the contents. -/
theorem ofBuf_toBuf {Val : EltTy → Type} {T : BufTy} (x : TRef sig T) (v : T.Contents Val) : x.ofBuf (x.toBuf v) = v := by
  obtain ⟨r, h, h2, h3⟩ := x
  subst h
  rfl

theorem toBuf_v49 (X : (⟨S100000x16, .f32⟩ : BufTy).Contents (Elt Ideal)) :
    (TRef.of (T := ⟨S100000x16, .f32⟩) main_v49).toBuf X = X := rfl
theorem ofBuf_v48 (X : (⟨S100000x16, .f32⟩ : BufTy).Contents (Elt Ideal)) :
    (TRef.of (T := ⟨S100000x16, .f32⟩) main_v48).ofBuf X = X := rfl
theorem toBuf_v67 (X : (⟨S100000x40, .f32⟩ : BufTy).Contents (Elt Ideal)) :
    (TRef.of (T := ⟨S100000x40, .f32⟩) main_v67).toBuf X = X := rfl
theorem ofBuf_v66 (X : (⟨S100000x40, .f32⟩ : BufTy).Contents (Elt Ideal)) :
    (TRef.of (T := ⟨S100000x40, .f32⟩) main_v66).ofBuf X = X := rfl

variable (m : (ℓ : Loc nD τ sig) → Buf (Elt Ideal) ℓ) (c : Dev nD)

/-- The buffers after each later stretch. -/
def U1 : Valuation τ sig (Elt Ideal) := after P1 (U0 m c)
def U2 : Valuation τ sig (Elt Ideal) := after P2 (U1 m c)
def U3 : Valuation τ sig (Elt Ideal) := after P3 (U2 m c)

theorem after_ops : after (ops (F := Ideal)) (launchContents m c) = U3 m c := by
  rw [ops_split, after_append, after_append, after_append]; rfl

macro "read1" : tactic => `(tactic| (unfold U1; dsimp only [P1]; after_results_cat))
macro "read2" : tactic => `(tactic| (unfold U2; dsimp only [P2]; after_results_cat))
macro "read3" : tactic => `(tactic| (unfold U3; dsimp only [P3]; after_results_cat))

/-! ## After the first layer -/
theorem u1_v49 : U1 m c (Proc.devRef .tc main_v49)
    = val_main_v49 (F := Ideal) (B0 m c) (B1 m c) (B2 m c) (B3 m c) (B4 m c) := by
  read1
  rw [u0_v3, u0_v6, u0_v31, u0_arg0, u0_arg3, u0_arg4]
  simp only [ofBuf_toBuf]
  rw [toBuf_v49, ofBuf_v48]
  simp only [val_main_v49, val_main_v48, val_main_v47, val_main_v46, val_main_v45, val_main_v44, val_main_v43, val_main_cst_8, val_main_v42, val_main_v41, val_main_v40, val_main_v39, val_main_v38, val_main_v37, val_main_v36, val_main_v35, val_main_c_7, val_main_v34, val_main_v33, val_main_c_6, val_main_v32, val_main_call1_v0, val_main_call1_cst]
theorem u1_v3 : U1 m c (Proc.devRef .tc main_v3) = val_main_v3 (F := Ideal) (B1 m c) := by read1; exact u0_v3 m c
theorem u1_v6 : U1 m c (Proc.devRef .tc main_v6) = val_main_v6 (F := Ideal) (B1 m c) := by read1; exact u0_v6 m c
theorem u1_v31 : U1 m c (Proc.devRef .tc main_v31) = val_main_v31 (F := Ideal) (B1 m c) (B2 m c) := by read1; exact u0_v31 m c
theorem u1_arg0 : U1 m c (Proc.devRef .tc main_arg0) = B0 m c := by read1; exact u0_arg0 m c
theorem u1_arg1 : U1 m c (Proc.devRef .tc main_arg1) = B1 m c := by read1; exact u0_arg1 m c
theorem u1_arg2 : U1 m c (Proc.devRef .tc main_arg2) = B2 m c := by read1; exact u0_arg2 m c
theorem u1_arg3 : U1 m c (Proc.devRef .tc main_arg3) = B3 m c := by read1; exact u0_arg3 m c
theorem u1_arg4 : U1 m c (Proc.devRef .tc main_arg4) = B4 m c := by read1; exact u0_arg4 m c
theorem u1_arg5 : U1 m c (Proc.devRef .tc main_arg5) = B5 m c := by read1; exact u0_arg5 m c
theorem u1_arg6 : U1 m c (Proc.devRef .tc main_arg6) = B6 m c := by read1; exact u0_arg6 m c

/-! ## After the second layer's sum and bias -/
theorem u2_v66 : U2 m c (Proc.devRef .tc main_v66)
    = val_main_v66 (F := Ideal) (B0 m c) (B1 m c) (B2 m c) (B3 m c) (B4 m c) (B5 m c) (B6 m c) := by
  read2
  rw [u1_v49, u1_v3, u1_v6, u1_v31, u1_arg5, u1_arg6]
  simp only [val_main_v66, val_main_v65, val_main_v64, val_main_v63, val_main_v62, val_main_v61, val_main_cst_11, val_main_v60, val_main_v59, val_main_v58, val_main_v57, val_main_v56, val_main_v55, val_main_v54, val_main_v53, val_main_c_10, val_main_v52, val_main_v51, val_main_c_9, val_main_v50]
theorem u2_arg0 : U2 m c (Proc.devRef .tc main_arg0) = B0 m c := by read2; exact u1_arg0 m c
theorem u2_arg1 : U2 m c (Proc.devRef .tc main_arg1) = B1 m c := by read2; exact u1_arg1 m c
theorem u2_arg2 : U2 m c (Proc.devRef .tc main_arg2) = B2 m c := by read2; exact u1_arg2 m c
theorem u2_arg3 : U2 m c (Proc.devRef .tc main_arg3) = B3 m c := by read2; exact u1_arg3 m c
theorem u2_arg4 : U2 m c (Proc.devRef .tc main_arg4) = B4 m c := by read2; exact u1_arg4 m c
theorem u2_arg5 : U2 m c (Proc.devRef .tc main_arg5) = B5 m c := by read2; exact u1_arg5 m c
theorem u2_arg6 : U2 m c (Proc.devRef .tc main_arg6) = B6 m c := by read2; exact u1_arg6 m c

/-! ## After the log-softmax: the result -/
theorem u3_v67 : U3 m c (Proc.devRef .tc main_v67)
    = val_main_v67 (F := Ideal) (B0 m c) (B1 m c) (B2 m c) (B3 m c) (B4 m c) (B5 m c) (B6 m c) := by
  read3
  rw [u2_v66]
  simp only [ofBuf_toBuf]
  rw [toBuf_v67, ofBuf_v66]
  simp only [val_main_v67, val_main_call2_v10, val_main_call2_v9, val_main_call2_v8, val_main_call2_v7, val_main_call2_cst_1, val_main_call2_v6, val_main_call2_v5, val_main_call2_v4, val_main_call2_v3, val_main_call2_v2, val_main_call2_v1, val_main_call2_cst_0, val_main_call2_v0, val_main_call2_cst]
theorem u3_arg0 : U3 m c (Proc.devRef .tc main_arg0) = B0 m c := by read3; exact u2_arg0 m c
theorem u3_arg1 : U3 m c (Proc.devRef .tc main_arg1) = B1 m c := by read3; exact u2_arg1 m c
theorem u3_arg2 : U3 m c (Proc.devRef .tc main_arg2) = B2 m c := by read3; exact u2_arg2 m c
theorem u3_arg3 : U3 m c (Proc.devRef .tc main_arg3) = B3 m c := by read3; exact u2_arg3 m c
theorem u3_arg4 : U3 m c (Proc.devRef .tc main_arg4) = B4 m c := by read3; exact u2_arg4 m c
theorem u3_arg5 : U3 m c (Proc.devRef .tc main_arg5) = B5 m c := by read3; exact u2_arg5 m c
theorem u3_arg6 : U3 m c (Proc.devRef .tc main_arg6) = B6 m c := by read3; exact u2_arg6 m c

/-- The plain program's run: every weakly fair execution terminates with the result array at the last stage of the
    arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v67)
        = val_main_v67 (F := Ideal) (B0 m c) (B1 m c) (B2 m c) (B3 m c) (B4 m c) (B5 m c) (B6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v67).trans (by rw [after_ops]; exact u3_v67 m c),
      (h c main_arg0).trans (by rw [after_ops]; exact u3_arg0 m c),
      (h c main_arg1).trans (by rw [after_ops]; exact u3_arg1 m c),
      (h c main_arg2).trans (by rw [after_ops]; exact u3_arg2 m c),
      (h c main_arg3).trans (by rw [after_ops]; exact u3_arg3 m c),
      (h c main_arg4).trans (by rw [after_ops]; exact u3_arg4 m c),
      (h c main_arg5).trans (by rw [after_ops]; exact u3_arg5 m c),
      (h c main_arg6).trans (by rw [after_ops]; exact u3_arg6 m c)⟩)
    (run_after (F := Ideal) m ρ)

end Cert.ReferenceIdeal.RefChain

end
-- ==== Proof.KernelRun.lean ====
/-
  The idealized kernel's run with its result named: from any memory with zero counters every weakly fair execution of
  the six tiled stages and the host operations between them terminates without a fault, the seven argument arrays end
  as they were, and the result array ends at the contents the last boundary of the run assigns to it — the buffer
  contents folded through the program's segments (a host stretch applies its operations, a tiled stage replaces its
  arrays by what its write-backs leave).
-/
import proofs.«139049_j20813411516894_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments unchanged. -/
theorem run_value : θ_run defs (onTc (τ := τ) (main (F := F))) ⟨m, fun _ => 0, ρ⟩ (fun r => ∀ c : Dev nD,
      r.2.mem ((c.tc : Thread nD τ).loc main_v65) = W19 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v65 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c)⟩)

end Cert.KernelIdeal.KRun

end
-- ==== Proof.Spec.lean ====
/-
  The whole-array functions that the six tiled stages of a two-layer graph convolution compute, index by index, on
  the extended reals.

  * `matProd x w`     : rows of `x` times columns of `w`, entry (p, q) the sum over c of x(p, c) * w(c, q).
  * `rowScale h s`    : every row p of `h` multiplied by the scalar s(p).
  * `biasRelu a b`    : the row `b` (stored as a 1 x d array) added to every row of `a`, then clamped below at 0.
  * `biasLogSoftmax a b` : the row `b` added to every row of `a`, then the row's log-softmax: with z the shifted
    row and M its maximum (a fold of max from the -inf word), z(q) - M - log (sum over c of exp (z(c) - M)).
-/
import Idealize.ShloMosaic.Lib.ValueIdx
import Idealize.ShloMosaic.PureOps.Ideal

noncomputable section

namespace Cert.Spec

open Idealize.ShloMosaic Idealize.ShloMosaic.ValueIdx

/-- Rows of `x` times columns of `w`. -/
def matProd {n k d : ℕ} (x : (⟨2, ![n, k]⟩ : Shape).Idx → EReal) (w : (⟨2, ![k, d]⟩ : Shape).Idx → EReal) :
    (⟨2, ![n, d]⟩ : Shape).Idx → EReal :=
  fun i => ∑ c : Fin k, x (ix2 (i 0) c) * w (ix2 c (i 1))

/-- Row p of `h` times the scalar `s p`. -/
def rowScale {n d : ℕ} (h : (⟨2, ![n, d]⟩ : Shape).Idx → EReal) (s : (⟨1, ![n]⟩ : Shape).Idx → EReal) :
    (⟨2, ![n, d]⟩ : Shape).Idx → EReal :=
  fun i => h i * s (ix1 (i 0))

/-- The row `b` added to every row of `a`, clamped below at zero. -/
def biasRelu {n d : ℕ} (a : (⟨2, ![n, d]⟩ : Shape).Idx → EReal) (b : (⟨2, ![1, d]⟩ : Shape).Idx → EReal) :
    (⟨2, ![n, d]⟩ : Shape).Idx → EReal :=
  fun i => max (a i + b (ix2 0 (i 1))) 0

/-- Row p of `a` shifted by the row `b`. -/
def shifted {n d : ℕ} (a : (⟨2, ![n, d]⟩ : Shape).Idx → EReal) (b : (⟨2, ![1, d]⟩ : Shape).Idx → EReal)
    (p : Fin n) (c : Fin d) : EReal := a (ix2 p c) + b (ix2 0 c)

/-- The maximum of a shifted row, folded from the -inf word. -/
def rowMax {n d : ℕ} (a : (⟨2, ![n, d]⟩ : Shape).Idx → EReal) (b : (⟨2, ![1, d]⟩ : Shape).Idx → EReal)
    (p : Fin n) : EReal :=
  (Finset.univ : Finset (Fin d)).fold max (Ideal.ofBits .f32 0xFF800000#32) fun c => shifted a b p c

/-- The row `b` added to every row of `a`, then each row's log-softmax. -/
def biasLogSoftmax {n d : ℕ} (a : (⟨2, ![n, d]⟩ : Shape).Idx → EReal) (b : (⟨2, ![1, d]⟩ : Shape).Idx → EReal) :
    (⟨2, ![n, d]⟩ : Shape).Idx → EReal :=
  fun i => (shifted a b (i 0) (i 1) - rowMax a b (i 0))
    - Ideal.log (∑ c : Fin d, Ideal.exp (shifted a b (i 0) c - rowMax a b (i 0)))

end Cert.Spec

end
-- ==== Proof.SlicePad.lean ====
/-
  Padding rows at the end, scaling every row, and cutting the padding off again is scaling the rows one had: an array
  h of n rows and a vector s of n scalars are padded to N >= n rows (with any padding values), row r of the padded
  array is multiplied by entry r of the padded vector, and the first n rows are kept. Row r < n of the result is
  h's row r times s(r): the padding is never read.
-/
import Idealize.ShloMosaic.Lib.KernelVsHost
import Idealize.ShloMosaic.Lib.ValueIdx
import proofs.«139049_j20813411516894_2_alg».proof.Proof.Spec

noncomputable section

namespace Cert.SlicePad

open Idealize.ShloMosaic Idealize.ShloMosaic.ValueIdx

/-- The first n rows of (h padded to N rows) scaled by (s padded to N entries) are h scaled by s. -/
theorem slice_rowScale_pad {n N d p : ℕ} (hN : n ≤ N)
    (g : (⟨2, ![n, d]⟩ : Shape).Idx → EReal) (s : (⟨1, ![n]⟩ : Shape).Idx → EReal)
    {u u' : Shape} (z : u.Idx → EReal) (z' : u'.Idx → EReal)
    (hp2 : (⟨2, ![n, d]⟩ : Shape).Pads ![0, 0] ![p, 0] ![0, 0] ⟨2, ![N, d]⟩) (hu : 0 < u.numel)
    (hp1 : (⟨1, ![n]⟩ : Shape).Pads ![0] ![p] ![0] ⟨1, ![N]⟩) (hu' : 0 < u'.numel)
    (hs : (⟨2, ![N, d]⟩ : Shape).Slices ![0, 0] ⟨2, ![n, d]⟩) :
    extractStridedSlice ⟨2, ![n, d]⟩ ![0, 0]
      (Cert.Spec.rowScale (pad ⟨2, ![N, d]⟩ ![0, 0] ![p, 0] ![0, 0] g z hp2 hu)
        (pad ⟨1, ![N]⟩ ![0] ![p] ![0] s z' hp1 hu')) hs
      = Cert.Spec.rowScale g s := by
  funext i
  have h0 : (i 0).val < N := lt_of_lt_of_le (idx2_lt0 i) hN
  rw [extractStridedSlice_apply _ _ hs i (ix2 (⟨(i 0).val, h0⟩ : Fin N) (i 1)) (fun a => by
      match a with
      | ⟨0, _⟩ => show (i 0).val = 0 + (i 0).val; omega
      | ⟨1, _⟩ => show (i 1).val = 0 + (i 1).val; omega)]
  show pad ⟨2, ![N, d]⟩ ![0, 0] ![p, 0] ![0, 0] g z hp2 hu (ix2 (⟨(i 0).val, h0⟩ : Fin N) (i 1))
      * pad ⟨1, ![N]⟩ ![0] ![p] ![0] s z' hp1 hu' (ix1 (⟨(i 0).val, h0⟩ : Fin N)) = g i * s (ix1 (i 0))
  rw [pad_apply_of_inside _ _ _ g z hp2 hu _ i (fun a => by
        match a with
        | ⟨0, _⟩ => show (i 0).val = 0 + (i 0).val * (0 + 1); omega
        | ⟨1, _⟩ => show (i 1).val = 0 + (i 1).val * (0 + 1); omega),
      pad_apply_of_inside _ _ _ s z' hp1 hu' _ (ix1 (i 0)) (fun a => by
        match a with
        | ⟨0, _⟩ => show (i 0).val = 0 + (i 0).val * (0 + 1); omega)]

end Cert.SlicePad

end
-- ==== Proof.KernelPrefix.lean ====
/-
  The kernel program's host operations before its first tiled stage, read as the reference's own stage functions.

  The 42 operations build the two edge lists with self loops (two slices of the edge array, each flattened and joined
  with the node numbering), the edge weights joined with ones, the nodes' degrees (a scatter-add of the weights), the
  degrees' inverse square roots where the degree is positive and zero elsewhere, and the per-edge factor: the product of
  the two endpoint values with the weight. They are read in seven short pieces, cut where a value is needed again; the
  buffers after each piece sit behind a plain definition, so each piece's values are small terms over the values the
  earlier pieces left.
-/
import proofs.«139049_j20813411516894_2_alg».proof.Proof.Gen.KernelIdeal.Frame
import proofs.«139049_j20813411516894_2_alg».proof.Proof.RefRead
import proofs.«139049_j20813411516894_2_alg».proof.Proof.LibCat2
import Idealize.ShloMosaic.Lib.StableHlo.Run

set_option maxRecDepth 65536

noncomputable section

namespace Cert.KernelIdeal.KPrefix

open Cert.KernelIdeal Cert.KernelIdeal.Gen Cert.ReferenceIdeal.Read
open Idealize.ShloMosaic Idealize.ShloMosaic.TcCoe Idealize.SL.Sem Idealize.ShloMosaic.StableHlo

section Pieces
variable {F : FTy → Type} [FloatOps F]

/-- The node numbering and the first edge list with self loops. -/
abbrev Q0 : List (HloOp τ sig (Elt F)) :=
  [ StableHlo.nullary main_v0 (iotaInDim S100000 32 0),
    StableHlo.unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v1 main_v2 rfl shapeCasts_S1x3200000_S3200000,
    StableHlo.binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The second edge list with self loops. -/
abbrev Q1 : List (HloOp τ sig (Elt F)) :=
  [ StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The edge weights joined with ones. -/
abbrev Q2 : List (HloOp τ sig (Elt F)) :=
  [ StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg2 main_v7 main_v8 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)) ]

/-- The nodes' degrees: the weights summed per target node. -/
abbrev Q3 : List (HloOp τ sig (Elt F)) :=
  [ StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]

/-- Where the degree is positive, its inverse square root, and the zero the other nodes get. -/
abbrev Q4 : List (HloOp τ sig (Elt F)) :=
  [ StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32) ]

/-- The first stretch of host operations is the five pieces in order. -/
theorem hostOps0_split : (hostOps0 : List (HloOp τ sig (Elt F))) = Q0 ++ (Q1 ++ (Q2 ++ (Q3 ++ Q4))) := rfl

/-- The contents after a concatenation are the contents after the second part from what the first part leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

end Pieces

variable (m : (ℓ : Loc nD τ sig) → Buf (Elt Ideal) ℓ) (ρ : Dev nD → PrngReg) (c : Dev nD)

/-- The seven argument arrays as launched. -/
abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)

/-- The buffers after each piece. -/
def K0 : Valuation τ sig (Elt Ideal) := after Q0 (W0 m ρ c)
def K1 : Valuation τ sig (Elt Ideal) := after Q1 (K0 m ρ c)
def K2 : Valuation τ sig (Elt Ideal) := after Q2 (K1 m ρ c)
def K3 : Valuation τ sig (Elt Ideal) := after Q3 (K2 m ρ c)
def K4 : Valuation τ sig (Elt Ideal) := after Q4 (K3 m ρ c)
def K5 : Valuation τ sig (Elt Ideal) := after hostOps0_1 (K4 m ρ c)
def K6 : Valuation τ sig (Elt Ideal) := after hostOps0_2 (K5 m ρ c)

/-- The contents at the first tiled stage's entry are what the last piece leaves. -/
theorem w3_eq : W3 m ρ c = K6 m ρ c := by
  show after hostOps0_2 (after hostOps0_1 (after hostOps0 (W0 m ρ c))) = _
  rw [hostOps0_split, after_append, after_append, after_append, after_append]
  rfl

macro "rd0" : tactic => `(tactic| (unfold K0; dsimp only [Q0]; after_results_cat))
macro "rd1" : tactic => `(tactic| (unfold K1; dsimp only [Q1]; after_results_cat))
macro "rd2" : tactic => `(tactic| (unfold K2; dsimp only [Q2]; after_results_cat))
macro "rd3" : tactic => `(tactic| (unfold K3; dsimp only [Q3]; after_results_cat))
macro "rd4" : tactic => `(tactic| (unfold K4; dsimp only [Q4]; after_results_cat))
macro "rd5" : tactic => `(tactic| (unfold K5; dsimp only [hostOps0_1]; after_results_cat))
macro "rd6" : tactic => `(tactic| (unfold K6; dsimp only [hostOps0_2]; after_results_cat))

/-! ## The node numbering and the first edge list -/
theorem k0_v0 : K0 m ρ c (Proc.devRef .tc main_v0) = val_main_v0 (F := Ideal) := by rd0 <;> rfl
theorem k0_v3 : K0 m ρ c (Proc.devRef .tc main_v3) = val_main_v3 (F := Ideal) (A1 m c) := by rd0 <;> rfl
theorem k0_arg1 : K0 m ρ c (Proc.devRef .tc main_arg1) = A1 m c := by rd0 <;> rfl
theorem k0_arg2 : K0 m ρ c (Proc.devRef .tc main_arg2) = A2 m c := by rd0 <;> rfl

/-! ## The second edge list -/
theorem k1_v6 : K1 m ρ c (Proc.devRef .tc main_v6) = val_main_v6 (F := Ideal) (A1 m c) := by
  rd1; rw [k0_arg1, k0_v0]; rfl
theorem k1_v3 : K1 m ρ c (Proc.devRef .tc main_v3) = val_main_v3 (F := Ideal) (A1 m c) := by rd1; exact k0_v3 m ρ c
theorem k1_arg2 : K1 m ρ c (Proc.devRef .tc main_arg2) = A2 m c := by rd1; exact k0_arg2 m ρ c

/-! ## The weights -/
theorem k2_v8 : K2 m ρ c (Proc.devRef .tc main_v8) = val_main_v8 (F := Ideal) (A2 m c) := by
  rd2; rw [k1_arg2]; rfl
theorem k2_v3 : K2 m ρ c (Proc.devRef .tc main_v3) = val_main_v3 (F := Ideal) (A1 m c) := by rd2; exact k1_v3 m ρ c
theorem k2_v6 : K2 m ρ c (Proc.devRef .tc main_v6) = val_main_v6 (F := Ideal) (A1 m c) := by rd2; exact k1_v6 m ρ c

/-! ## The degrees -/
theorem k3_v11 : K3 m ρ c (Proc.devRef .tc main_v11) = val_main_v11 (F := Ideal) (A1 m c) (A2 m c) := by
  rd3; rw [k2_v6, k2_v8]; rfl
theorem k3_v3 : K3 m ρ c (Proc.devRef .tc main_v3) = val_main_v3 (F := Ideal) (A1 m c) := by rd3; exact k2_v3 m ρ c
theorem k3_v6 : K3 m ρ c (Proc.devRef .tc main_v6) = val_main_v6 (F := Ideal) (A1 m c) := by rd3; exact k2_v6 m ρ c
theorem k3_v8 : K3 m ρ c (Proc.devRef .tc main_v8) = val_main_v8 (F := Ideal) (A2 m c) := by rd3; exact k2_v8 m ρ c

/-! ## The inverse square roots and the zero -/
theorem k4_v13 : K4 m ρ c (Proc.devRef .tc main_v13) = val_main_v13 (F := Ideal) (A1 m c) (A2 m c) := by
  rd4; rw [k3_v11]; rfl
theorem k4_v14 : K4 m ρ c (Proc.devRef .tc main_v14) = val_main_v14 (F := Ideal) (A1 m c) (A2 m c) := by
  rd4; rw [k3_v11]; rfl
theorem k4_cst_2 : K4 m ρ c (Proc.devRef .tc main_cst_2) = val_main_cst_2 (F := Ideal) := by rd4 <;> rfl
theorem k4_v3 : K4 m ρ c (Proc.devRef .tc main_v3) = val_main_v3 (F := Ideal) (A1 m c) := by rd4; exact k3_v3 m ρ c
theorem k4_v6 : K4 m ρ c (Proc.devRef .tc main_v6) = val_main_v6 (F := Ideal) (A1 m c) := by rd4; exact k3_v6 m ρ c
theorem k4_v8 : K4 m ρ c (Proc.devRef .tc main_v8) = val_main_v8 (F := Ideal) (A2 m c) := by rd4; exact k3_v8 m ρ c

/-! ## The choice between them

The three operations of the outlined choice name their buffers with the values' types attached, and carry contents to a
buffer's own type and back; each buffer's type is the value's by computation, so each carrying is the identity. -/
theorem to_v15 (h1 : main_v15.ty = (⟨S100000, .f32⟩ : BufTy)) (h2 h3) (v : (⟨S100000, .f32⟩ : BufTy).Contents (Elt Ideal)) :
    (TRef.of (sig := sig) main_v15 h1 h2 h3).toBuf v = v := rfl
theorem of_v13 (h1 : main_v13.ty = (⟨S100000, .i1⟩ : BufTy)) (h2 h3) (v : (⟨S100000, .i1⟩ : BufTy).Contents (Elt Ideal)) :
    (TRef.of (sig := sig) main_v13 h1 h2 h3).ofBuf v = v := rfl
theorem of_v14 (h1 : main_v14.ty = (⟨S100000, .f32⟩ : BufTy)) (h2 h3) (v : (⟨S100000, .f32⟩ : BufTy).Contents (Elt Ideal)) :
    (TRef.of (sig := sig) main_v14 h1 h2 h3).ofBuf v = v := rfl
theorem of_cst_2 (h1 : main_cst_2.ty = (⟨S_, .f32⟩ : BufTy)) (h2 h3) (v : (⟨S_, .f32⟩ : BufTy).Contents (Elt Ideal)) :
    (TRef.of (sig := sig) main_cst_2 h1 h2 h3).ofBuf v = v := rfl
theorem to_c0v0 (h1 : main_call0_v0.ty = (⟨S_, .f32⟩ : BufTy)) (h2 h3) (v : (⟨S_, .f32⟩ : BufTy).Contents (Elt Ideal)) :
    (TRef.of (sig := sig) main_call0_v0 h1 h2 h3).toBuf v = v := rfl

theorem k5_v15 : K5 m ρ c (Proc.devRef .tc main_v15) = val_main_v15 (F := Ideal) (A1 m c) (A2 m c) := by
  rd5; rw [k4_v13, k4_v14, k4_cst_2]
  repeat (first | rewrite [to_v15] | rewrite [of_v13] | rewrite [of_v14] | rewrite [of_cst_2] | rewrite [to_c0v0])
  all_goals first | rfl | decide
theorem k5_v3 : K5 m ρ c (Proc.devRef .tc main_v3) = val_main_v3 (F := Ideal) (A1 m c) := by rd5; exact k4_v3 m ρ c
theorem k5_v6 : K5 m ρ c (Proc.devRef .tc main_v6) = val_main_v6 (F := Ideal) (A1 m c) := by rd5; exact k4_v6 m ρ c
theorem k5_v8 : K5 m ρ c (Proc.devRef .tc main_v8) = val_main_v8 (F := Ideal) (A2 m c) := by rd5; exact k4_v8 m ρ c

/-! ## The per-edge factor -/
theorem k6_v31 : K6 m ρ c (Proc.devRef .tc main_v31) = val_main_v31 (F := Ideal) (A1 m c) (A2 m c) := by
  rd6; rw [k5_v3, k5_v6, k5_v8, k5_v15]; rfl

/-! ## At the first tiled stage's entry -/

/-- The per-edge factor. -/
theorem w3_v31 : W3 m ρ c (Proc.devRef .tc main_v31) = val_main_v31 (F := Ideal) (A1 m c) (A2 m c) := by
  rw [w3_eq]; exact k6_v31 m ρ c

macro "rdW" : tactic => `(tactic| (show StableHlo.after hostOps0_2 (StableHlo.after hostOps0_1 (StableHlo.after hostOps0 (W0 _ _ _))) _ = _; dsimp only [hostOps0, hostOps0_1, hostOps0_2]; after_results_simp))

/-- The two edge lists with self loops. -/
theorem w3_v3 : W3 m ρ c (Proc.devRef .tc main_v3) = val_main_v3 (F := Ideal) (A1 m c) := by rdW <;> rfl
theorem w3_v6 : W3 m ρ c (Proc.devRef .tc main_v6) = val_main_v6 (F := Ideal) (A1 m c) := by rdW <;> rfl

/-- The arguments the later stages read are as launched. -/
theorem w3_arg0 : W3 m ρ c (Proc.devRef .tc main_arg0) = A0 m c := by rdW <;> rfl
theorem w3_arg3 : W3 m ρ c (Proc.devRef .tc main_arg3) = A3 m c := by rdW <;> rfl
theorem w3_arg4 : W3 m ρ c (Proc.devRef .tc main_arg4) = A4 m c := by rdW <;> rfl
theorem w3_arg5 : W3 m ρ c (Proc.devRef .tc main_arg5) = A5 m c := by rdW <;> rfl
theorem w3_arg6 : W3 m ρ c (Proc.devRef .tc main_arg6) = A6 m c := by rdW <;> rfl

end Cert.KernelIdeal.KPrefix

end
-- ==== Proof.Blocks0.lean ====
/-
  Region 0 of the program, a tiled matrix product: every grid point multiplies its block of rows of the left
  operand by the whole right operand, and the blocks of rows tile the result. Read on the extended reals the array
  the region leaves is the whole-array product, entry (p, q) the sum over c of x(p, c) * w(c, q).
-/
import proofs.«139049_j20813411516894_2_alg».proof.Proof.Gen.KernelIdeal.Frame
import proofs.«139049_j20813411516894_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's product at an index -/

theorem lhs_0 (i : S5000x16.Idx) (q : dot_S5000x256_S256x16_S5000x16_1_0_0_1_n_n.contr.Idx) : (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem lhs_1 (i : S5000x16.Idx) (q : dot_S5000x256_S256x16_S5000x16_1_0_0_1_n_n.contr.Idx) : (dot_S5000x256_S256x16_S5000x16_1_0_0_1_n_n.lhsIdx i q 1).val = (q ⟨0, by decide⟩).val :=
  dot_S5000x256_S256x16_S5000x16_1_0_0_1_n_n.lhsIdx_val_of_single rfl i q
theorem rhs_0 (i : S5000x16.Idx) (q : dot_S5000x256_S256x16_S5000x16_1_0_0_1_n_n.contr.Idx) : (dot_S5000x256_S256x16_S5000x16_1_0_0_1_n_n.rhsIdx i q 0).val = (q ⟨0, by decide⟩).val :=
  dot_S5000x256_S256x16_S5000x16_1_0_0_1_n_n.rhsIdx_val_of_single rfl i q
theorem rhs_1 (i : S5000x16.Idx) (q : dot_S5000x256_S256x16_S5000x16_1_0_0_1_n_n.contr.Idx) : (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-- The product into the zero accumulator, at an index: the sum over the 256 shared coordinates of the left operand
    at (row, c) times the right operand at (c, column). -/
theorem matmul_apply (a : FVec Ideal S5000x256 .bf16) (b : FVec Ideal S256x16 .bf16) (j : S5000x16.Idx) :
    FloatOps.matmul dot_S5000x256_S256x16_S5000x16_1_0_0_1_n_n none a b (constant (F := Ideal) S5000x16 .f32 0x00000000#32) j
      = ∑ k : Fin 256, a (ix2 (j 0) k) * b (ix2 k (j 1)) := by
  rw [Ideal.matmul_constant_zero_apply, ← Equiv.sum_comp (contrEquiv1 dot_S5000x256_S256x16_S5000x16_1_0_0_1_n_n 256 rfl rfl).symm]
  refine Finset.sum_congr rfl fun k _ => ?_
  have hk := contrEquiv1_symm_val dot_S5000x256_S256x16_S5000x16_1_0_0_1_n_n 256 rfl rfl k
  have el : dot_S5000x256_S256x16_S5000x16_1_0_0_1_n_n.lhsIdx j ((contrEquiv1 dot_S5000x256_S256x16_S5000x16_1_0_0_1_n_n 256 rfl rfl).symm k) = ix2 (j 0) k := funext fun a => Fin.ext (by
    match a with
    | ⟨0, _⟩ => exact lhs_0 _ _
    | ⟨1, _⟩ => exact (lhs_1 _ _).trans hk)
  have er : dot_S5000x256_S256x16_S5000x16_1_0_0_1_n_n.rhsIdx j ((contrEquiv1 dot_S5000x256_S256x16_S5000x16_1_0_0_1_n_n 256 rfl rfl).symm k) = ix2 k (j 1) := funext fun a => Fin.ext (by
    match a with
    | ⟨0, _⟩ => exact (rhs_0 _ _).trans hk
    | ⟨1, _⟩ => exact rhs_1 _ _)
  rw [el, er]
  rfl

/-- The body's payload at an index: both operands pass through the narrowing unchanged on the extended reals. -/
theorem pay_apply (x0 : Vec Ideal S5000x256 .f32) (x1 : Vec Ideal S256x16 .f32) (j : S5000x16.Idx) :
    k0_pay1 x0 x1 j = ∑ k : Fin 256, x0 (ix2 (j 0) k) * x1 (ix2 k (j 1)) := by
  unfold k0_pay1
  exact matmul_apply (truncf (F := Ideal) .bf16 x0 bitsLt_bf16_f32) (truncf (F := Ideal) .bf16 x1 bitsLt_bf16_f32) j

/-! ## From the blocks to the array -/

theorem zero_offsets : (![0, 0] : Fin 2 → Nat) = fun _ => 0 := funext fun a => by fin_cases a <;> rfl

/-- The printed index maps, decided over the 20 grid points: the left operand's block of rows moves with the output's
    (block t on axis 0), the right operand is one block for every point, and nothing moves on axis 1. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every block of rows is some point's. -/
theorem idx_onto : ∀ q : Fin 20, ∃ t : Fin cfg0.N, win0_2.index t (0 : Fin 2) = q.val :=
  (by decide +kernel : ∀ q : Fin 20, ∃ t : Fin grid0.N, win0_2.index t (0 : Fin 2) = q.val)

/-- What point `t` writes back is block `t` of the whole-array product of the two arrays as the region finds them. -/
theorem flushed_eq (c : Dev nD) (t : Fin cfg0.N) :
    (dat0 V c).flushed 2 t = ((cfg0.win 2).blk t).view.read (Elt Ideal)
      (Cert.Spec.matProd (n := 100000) (k := 256) (d := 16) (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x16) zero_offsets]
  obtain ⟨e0, e1, e2, e3, e4, e5⟩ := idx_facts t
  funext j
  refine (pay_apply (iblk0 V c 0 t) (iblk0 V c 1 t) _).trans ?_
  have hj0 : (j 0).val < 5000 := (j 0).isLt
  have hj1 : (j 1).val < 16 := (j 1).isLt
  have h0 : ∀ k : Fin 256, ((cfg0.win 0).blk t).view.emb (ix2 (n0 := 5000) (n1 := 256) ⟨(j 0).val, (j 0).isLt⟩ k)
      = ix2 (n0 := 100000) (n1 := 256) ((((cfg0.win 2).blk t).view.emb j) 0) k := by
    intro k; funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ∀ k : Fin 256, ((cfg0.win 1).blk t).view.emb (ix2 (n0 := 256) (n1 := 16) k ⟨(j 1).val, (j 1).isLt⟩)
      = ix2 (n0 := 256) (n1 := 16) k ((((cfg0.win 2).blk t).view.emb j) 1) := by
    intro k; funext a; apply Fin.ext
    match a with
    | ⟨0, _⟩ => show win0_1.index t (0 : Fin 2) * 256 + 1 * k.val = k.val; omega
    | ⟨1, _⟩ => show win0_1.index t (1 : Fin 2) * 16 + 1 * (j 1).val = win0_2.index t (1 : Fin 2) * 16 + 1 * (j 1).val; omega
  have key : ∀ (A0 : S100000x256.Idx → EReal) (A1 : S256x16.Idx → EReal),
      ∑ k : Fin 256, A0 (((cfg0.win 0).blk t).view.emb (ix2 (n0 := 5000) (n1 := 256) ⟨(j 0).val, (j 0).isLt⟩ k))
          * A1 (((cfg0.win 1).blk t).view.emb (ix2 (n0 := 256) (n1 := 16) k ⟨(j 1).val, (j 1).isLt⟩))
        = ∑ k : Fin 256, A0 (ix2 (n0 := 100000) (n1 := 256) ((((cfg0.win 2).blk t).view.emb j) 0) k)
          * A1 (ix2 (n0 := 256) (n1 := 16) k ((((cfg0.win 2).blk t).view.emb j) 1)) := by
    intro A0 A1
    refine Finset.sum_congr rfl fun k _ => ?_
    rw [h0 k, h1 k]
  exact key (V c main_arg0) (V c main_arg3)

/-- An index of the array is in point `t`'s block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The blocks of rows tile the array: row r lies in the block of point r / 5000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 5000, by omega⟩
  have q0 : win0_2.index t (0 : Fin 2) = (i 0).val / 5000 := ht
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The array the region leaves is the whole-array product. -/
theorem final0 (c : Dev nD) : (dat0 (F := Ideal) V c).arrAt 2 cfg0.N
    = Cert.Spec.matProd (n := 100000) (k := 256) (d := 16) (V c main_arg0) (V c main_arg3) :=
  (dat0 V c).arrAt_eq_of_cover 2 _ (fun t _ => flushed_eq V c t) cover

end Cert.KernelIdeal.Blocks0

end
-- ==== Proof.RefStage0.lean ====
/-
  The reference's first product, read on the extended reals: the host's contraction of the node features with the
  first weight matrix is the whole-array product, entry (p, q) the sum over c of x(p, c) * w(c, q).
-/
import proofs.«139049_j20813411516894_2_alg».proof.Proof.RefRead
import proofs.«139049_j20813411516894_2_alg».proof.Proof.Spec

noncomputable section

namespace Cert.ReferenceIdeal.RefStage0

open Cert.ReferenceIdeal Cert.ReferenceIdeal.Gen Idealize.ShloMosaic Idealize.ShloMosaic.ValueIdx

/-- The contraction's left and right indices at output index `i` and position `k` are (row of `i`, `k`) and
    (`k`, column of `i`). -/
theorem lidx_eq (i : S100000x16.Idx) (k : Fin 256) : Read.lidx_main_v32 i k = ix2 (i 0) k :=
  funext fun a => by match a with | ⟨0, _⟩ => rfl | ⟨1, _⟩ => rfl
theorem ridx_eq (i : S100000x16.Idx) (k : Fin 256) : Read.ridx_main_v32 i k = ix2 k (i 1) :=
  funext fun a => by match a with | ⟨0, _⟩ => rfl | ⟨1, _⟩ => rfl

/-- The reference's first product is the whole-array product of its two operands. -/
theorem ref32 (x0 : (⟨S100000x256, .f32⟩ : BufTy).Contents (Elt Ideal)) (x3 : (⟨S256x16, .f32⟩ : BufTy).Contents (Elt Ideal)) :
    Read.val_main_v32 (F := Ideal) x0 x3 = Cert.Spec.matProd x0 x3 := by
  funext i
  refine (Read.val_main_v32_apply x0 x3 i).trans ?_
  refine Finset.sum_congr rfl fun k _ => ?_
  rw [lidx_eq, ridx_eq] <;> rfl

end Cert.ReferenceIdeal.RefStage0

end
-- ==== Proof.Blocks1.lean ====
/-
  Region 1 (row scaling, 16 columns): the array the region leaves is, index by index, the product of the input
  array's entry with its row's scalar.

  Each grid point t multiplies the 8192 x 16 block of rows t*8192 ... t*8192+8191 by the length-8192 stretch of the
  scalar vector at the same rows, viewed as a column and repeated along the 16 columns. The output's blocks tile
  the whole array, so what the points write back, block by block, is the one whole-array function.
-/
import proofs.«139049_j20813411516894_2_alg».proof.Proof.Gen.KernelIdeal.Frame
import proofs.«139049_j20813411516894_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## A vector as a column, and a column repeated along the rows' second axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- The payload at row `p`, column `q` of the block: the block's entry times the scalar of row `p`. -/
theorem pay_apply (x0 : Vec Ideal S8192x16 .f32) (x1 : Vec Ideal S8192 .f32) (p : Fin 8192) (q : Fin 16) :
    k1_pay1 (F := Ideal) x0 x1 (ix2 p q) = x0 (ix2 p q) * x1 (ix1 p) := by
  unfold k1_pay1
  rw [mulf_apply, shapeCast_self, shapeCast_self, broadcastTo_a1_ab_apply, shapeCast_a_a1_apply]

/-- The same at any index of the block. -/
theorem pay_eq (x0 : Vec Ideal S8192x16 .f32) (x1 : Vec Ideal S8192 .f32) (j : S8192x16.Idx) :
    k1_pay1 (F := Ideal) x0 x1 j = x0 j * x1 (ix1 (j 0)) := by
  obtain ⟨p, q, rfl⟩ : ∃ (p : Fin 8192) (q : Fin 16), j = ix2 p q := ⟨j 0, j 1, eq_ix2 j⟩
  exact pay_apply x0 x1 p q

/-! ## The index maps over the grid -/

theorem hz2 : (![0, 0] : Fin 2 → Nat) = fun _ => 0 := funext fun a => by fin_cases a <;> rfl
theorem hz1 : (![0] : Fin 1 → Nat) = fun _ => 0 := funext fun a => by fin_cases a; rfl

/-- Both inputs' blocks move with the output's: at point `t` all three are block number `t` along the rows, and the
    two-axis windows stay at block 0 along the columns. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 1) = win1_2.index t (0 : Fin 2)
    ∧ win1_2.index t (0 : Fin 2) = t.val
    ∧ win1_2.index t (1 : Fin 2) = 0 :=
  (by decide +kernel : ∀ t : Fin grid1.N, _)

/-! ## What a point writes back -/

/-- Two arrays read at equal indices have equal products of their entries. -/
theorem mul_read_congr {A B : Type} (f : A → EReal) (g : B → EReal) {a a' : A} {b b' : B} (ha : a = a') (hb : b = b') :
    f a * g b = f a' * g b' := by rw [ha, hb]

/-- What point `t` writes back is block `t` of the row-scaled array. -/
theorem flushed_eq (c : Dev nD) (t : Fin cfg1.N) :
    (dat1 (F := Ideal) V c).flushed 2 t
      = ((cfg1.win 2).blk t).view.read (Elt Ideal) (Cert.Spec.rowScale (V c main_v40) (V c main_v41)) := by
  show (cfg1.win 2).cut (grid1.coords t) ((dat1 V c).after 2 t) = _
  rw [after1_2]
  unfold out1_2
  rw [View.canon_unit_zero hz2]
  simp only [View.ld_unit_zero (S := S8192x16) hz2, View.ld_unit_zero (S := S8192) hz1]
  obtain ⟨e0, e1, e2, e3, e4⟩ := idx_facts t
  funext j
  refine (pay_eq _ _ j).trans ?_
  have h0 : ((cfg1.win 0).blk t).view.emb j = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix1 (j 0)) = ix1 ((((cfg1.win 2).blk t).view.emb j) 0) := by
    funext a; apply Fin.ext
    match a with
    | ⟨0, _⟩ => show win1_1.index t (0 : Fin 1) * 8192 + 1 * (j 0).val = win1_2.index t (0 : Fin 2) * 8192 + 1 * (j 0).val; omega
  exact mul_read_congr (V c main_v40) (V c main_v41) h0 h1

/-! ## The blocks tile the array -/

/-- An index of the array is in point `t`'s block iff each coordinate is in the block's range on its axis. -/
theorem mem_blk (t : Fin cfg1.N) (i : S3301376x16.Idx) :
    i ∈ ((cfg1.win 2).blk t).view.set ↔ ∀ a : Fin 2, win1_2.index t a * S8192x16.size a ≤ (i a).val
      ∧ (i a).val < win1_2.index t a * S8192x16.size a + S8192x16.size a := by
  show i ∈ ((View.whole main_v42).slice (win1_2.rect t)).set ↔ _
  rw [View.set_slice_whole, Rect.mem_set_unit]
  exact Iff.rfl

/-- Row `r` of the array lies in the block of point `r / 8192`. -/
theorem cover (i : S3301376x16.Idx) :
    ∃ t : Fin cfg1.N, (cfg1.win 2).flush t = true ∧ i ∈ ((cfg1.win 2).blk t).view.set := by
  have hi0 : (i 0).val < 3301376 := (i 0).isLt
  have hi1 : (i 1).val < 16 := (i 1).isLt
  have hN : cfg1.N = 403 := rfl
  have ht : (i 0).val / 8192 < cfg1.N := by rw [hN]; omega
  obtain ⟨e0, e1, e2, e3, e4⟩ := idx_facts ⟨(i 0).val / 8192, ht⟩
  have e3' : win1_2.index ⟨(i 0).val / 8192, ht⟩ (0 : Fin 2) = (i 0).val / 8192 := e3
  refine ⟨⟨(i 0).val / 8192, ht⟩, flush1_2 _, ?_⟩
  rw [mem_blk]
  intro a
  match a with
  | ⟨0, _⟩ =>
    show win1_2.index ⟨(i 0).val / 8192, ht⟩ (0 : Fin 2) * 8192 ≤ (i 0).val
      ∧ (i 0).val < win1_2.index ⟨(i 0).val / 8192, ht⟩ (0 : Fin 2) * 8192 + 8192
    omega
  | ⟨1, _⟩ =>
    show win1_2.index ⟨(i 0).val / 8192, ht⟩ (1 : Fin 2) * 16 ≤ (i 1).val
      ∧ (i 1).val < win1_2.index ⟨(i 0).val / 8192, ht⟩ (1 : Fin 2) * 16 + 16
    omega

/-! ## The array after the region -/

/-- The array the region leaves: every row of the first input times that row's scalar. -/
theorem final1 (c : Dev nD) :
    (dat1 (F := Ideal) V c).arrAt 2 cfg1.N = Cert.Spec.rowScale (V c main_v40) (V c main_v41) :=
  (dat1 V c).arrAt_eq_of_cover 2 _ (fun t _ => flushed_eq V c t) cover

end Cert.KernelIdeal.Blocks1

end
-- ==== Proof.RefStage1.lean ====
/-
  The reference's first row scaling: the gathered rows, each multiplied by its edge's scalar. The scalar vector is
  repeated along a unit axis and then along the 16 columns before the pointwise product, so the product's entry at
  (p, q) is the gathered entry at (p, q) times the scalar at p.
-/
import proofs.«139049_j20813411516894_2_alg».proof.Proof.RefRead
import proofs.«139049_j20813411516894_2_alg».proof.Proof.Spec
import Idealize.ShloMosaic.Lib.ValueIdx
import Idealize.ShloMosaic.PureOps.Ideal.Laws

noncomputable section

namespace Cert.ReferenceIdeal.RefStage1

open Cert.ReferenceIdeal Idealize.ShloMosaic Idealize.ShloMosaic.ValueIdx

/-- The reference's scaled rows are the row scaling of the gathered rows by the edge scalars. -/
theorem ref42 (x0 : (⟨S100000x256, .f32⟩ : BufTy).Contents (Elt Ideal)) (x1 : (⟨S2x3200000, .i32⟩ : BufTy).Contents (Elt Ideal))
    (x2 : (⟨S3200000, .f32⟩ : BufTy).Contents (Elt Ideal)) (x3 : (⟨S256x16, .f32⟩ : BufTy).Contents (Elt Ideal)) :
    Read.val_main_v42 x0 x1 x2 x3 = Cert.Spec.rowScale (Read.val_main_v39 x0 x1 x3) (Read.val_main_v31 x1 x2) := by
  funext i
  have hi : Read.idx_main_v40 (Read.idx_main_v41 i) = ix1 (i 0) :=
    funext fun a => Fin.ext (by match a with | ⟨0, _⟩ => rfl)
  rw [Read.val_main_v42_apply, Read.val_main_v41_apply, Read.val_main_v40_apply, hi]
  rfl

end Cert.ReferenceIdeal.RefStage1

end
-- ==== Proof.Blocks2.lean ====
/-
  Region 2 (bias and clamp, 16 columns): the array the region leaves is, index by index, the input array's entry plus
  the bias row's entry of the same column, clamped below at zero.

  Each grid point t takes the 5000 x 16 block of rows t*5000 ... t*5000+4999, adds the one 1 x 16 bias row repeated
  along the rows, and takes the maximum with zero. The output's blocks tile the whole array.
-/
import proofs.«139049_j20813411516894_2_alg».proof.Proof.Gen.KernelIdeal.Frame
import proofs.«139049_j20813411516894_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's payload at an index -/

/-- The payload at row `p`, column `q` of the block: the block's entry plus the bias of column `q`, clamped below
    at zero (the zero word is the real 0). -/
theorem pay_apply (x0 : Vec Ideal S5000x16 .f32) (x1 : Vec Ideal S1x16 .f32) (p : Fin 5000) (q : Fin 16) :
    k2_pay1 (F := Ideal) x0 x1 (ix2 p q) = max (x0 (ix2 p q) + x1 (ix2 (0 : Fin 1) q)) 0 := by
  unfold k2_pay1
  rw [maximumf_apply, addf_apply, shapeCast_self, shapeCast_self, broadcastTo_1b_ab_apply, broadcast_apply]
  show max (x0 (ix2 p q) + x1 (ix2 (0 : Fin 1) q)) (Ideal.ofBits .f32 0x00000000#32) = _
  rw [Ideal.ofBits_zero_f32]

/-- The same at any index of the block. -/
theorem pay_eq (x0 : Vec Ideal S5000x16 .f32) (x1 : Vec Ideal S1x16 .f32) (j : S5000x16.Idx) :
    k2_pay1 (F := Ideal) x0 x1 j = max (x0 j + x1 (ix2 (0 : Fin 1) (j 1))) 0 := by
  obtain ⟨p, q, rfl⟩ : ∃ (p : Fin 5000) (q : Fin 16), j = ix2 p q := ⟨j 0, j 1, eq_ix2 j⟩
  exact pay_apply x0 x1 p q

/-! ## The index maps over the grid -/

theorem hz2 : (![0, 0] : Fin 2 → Nat) = fun _ => 0 := funext fun a => by fin_cases a <;> rfl

/-- The first input's block moves with the output's: at point `t` both are block number `t` along the rows and
    block 0 along the columns; the bias window stays at its one block. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-! ## What a point writes back -/

/-- Two arrays read at equal indices give equal clamped sums of their entries. -/
theorem relu_read_congr {A B : Type} (f : A → EReal) (g : B → EReal) {a a' : A} {b b' : B} (ha : a = a') (hb : b = b') :
    max (f a + g b) 0 = max (f a' + g b') 0 := by rw [ha, hb]

/-- What point `t` writes back is block `t` of the biased, clamped array. -/
theorem flushed_eq (c : Dev nD) (t : Fin cfg2.N) :
    (dat2 (F := Ideal) V c).flushed 2 t
      = ((cfg2.win 2).blk t).view.read (Elt Ideal) (Cert.Spec.biasRelu (V c main_v46) (V c main_v47)) := by
  show (cfg2.win 2).cut (grid2.coords t) ((dat2 V c).after 2 t) = _
  rw [after2_2]
  unfold out2_2
  rw [View.canon_unit_zero hz2]
  simp only [View.ld_unit_zero (S := S5000x16) hz2, View.ld_unit_zero (S := S1x16) hz2]
  obtain ⟨e0, e1, e2, e3, e4, e5⟩ := idx_facts t
  funext j
  refine (pay_eq _ _ j).trans ?_
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 16 + 1 * (j 1).val = win2_2.index t (1 : Fin 2) * 16 + 1 * (j 1).val; omega
  have h1 : ((cfg2.win 1).blk t).view.emb (ix2 (0 : Fin 1) (j 1)) = ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 16 + 1 * (j 1).val = win2_2.index t (1 : Fin 2) * 16 + 1 * (j 1).val; omega
  exact relu_read_congr (V c main_v46) (V c main_v47) h0 h1

/-! ## The blocks tile the array -/

/-- An index of the array is in point `t`'s block iff each coordinate is in the block's range on its axis. -/
theorem mem_blk (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v48).slice (win2_2.rect t)).set ↔ _
  rw [View.set_slice_whole, Rect.mem_set_unit]
  exact Iff.rfl

/-- Row `r` of the array lies in the block of point `r / 5000`. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := rfl
  have ht : (i 0).val / 5000 < cfg2.N := by rw [hN]; omega
  obtain ⟨e0, e1, e2, e3, e4, e5⟩ := idx_facts ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 16 ≤ (i 1).val
      ∧ (i 1).val < win2_2.index ⟨(i 0).val / 5000, ht⟩ (1 : Fin 2) * 16 + 16
    omega

/-! ## The array after the region -/

/-- The array the region leaves: every row of the first input plus the bias row, clamped below at zero. -/
theorem final2 (c : Dev nD) :
    (dat2 (F := Ideal) V c).arrAt 2 cfg2.N = Cert.Spec.biasRelu (V c main_v46) (V c main_v47) :=
  (dat2 V c).arrAt_eq_of_cover 2 _ (fun t _ => flushed_eq V c t) cover

end Cert.KernelIdeal.Blocks2

end
-- ==== Proof.RefStage2.lean ====
/-
  The reference's bias and clamp: the scattered sums plus the length-16 bias vector repeated along the rows, then the
  maximum with a zero array. Entry (p, q) is the sum's entry plus the bias at q, clamped below at zero (the zero word
  is the real 0).
-/
import proofs.«139049_j20813411516894_2_alg».proof.Proof.RefRead
import proofs.«139049_j20813411516894_2_alg».proof.Proof.Spec
import Idealize.ShloMosaic.Lib.ValueIdx
import Idealize.ShloMosaic.PureOps.Ideal.Laws

noncomputable section

namespace Cert.ReferenceIdeal.RefStage2

open Cert.ReferenceIdeal Idealize.ShloMosaic Idealize.ShloMosaic.ValueIdx

/-- The reference's clamped rows are the bias-and-clamp of the scattered sums by the bias vector read as a row. -/
theorem ref49 (x0 : (⟨S100000x256, .f32⟩ : BufTy).Contents (Elt Ideal)) (x1 : (⟨S2x3200000, .i32⟩ : BufTy).Contents (Elt Ideal))
    (x2 : (⟨S3200000, .f32⟩ : BufTy).Contents (Elt Ideal)) (x3 : (⟨S256x16, .f32⟩ : BufTy).Contents (Elt Ideal))
    (x4 : (⟨S16, .f32⟩ : BufTy).Contents (Elt Ideal)) :
    Read.val_main_v49 x0 x1 x2 x3 x4
      = Cert.Spec.biasRelu (Read.val_main_v45 x0 x1 x2 x3) (fun i => x4 (ix1 (i 1))) := by
  funext i
  have hi : Read.idx_main_v46 (Read.idx_main_v47 i) = ix1 (i 1) :=
    funext fun a => Fin.ext (by match a with | ⟨0, _⟩ => rfl)
  rw [Read.val_main_v49_apply, Read.val_main_v48_apply, Read.val_main_v47_apply, Read.val_main_v46_apply,
    Read.val_main_call1_v0_apply, Read.val_main_call1_cst_apply, hi]
  show max (Read.val_main_v45 x0 x1 x2 x3 i + x4 (ix1 (i 1))) (Ideal.ofBits .f32 0x00000000#32)
    = max (Read.val_main_v45 x0 x1 x2 x3 i + x4 (ix1 (i 1))) 0
  rw [Ideal.ofBits_zero_f32]

end Cert.ReferenceIdeal.RefStage2

end
-- ==== Proof.Blocks3.lean ====
/-
  Region 3 of the program, a tiled matrix product: every grid point multiplies its block of rows of the left
  operand by the whole right operand, and the blocks of rows tile the result. Read on the extended reals the array
  the region leaves is the whole-array product, entry (p, q) the sum over c of x(p, c) * w(c, q).
-/
import proofs.«139049_j20813411516894_2_alg».proof.Proof.Gen.KernelIdeal.Frame
import proofs.«139049_j20813411516894_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The body's product at an index -/

theorem lhs_0 (i : S5000x40.Idx) (q : dot_S5000x16_S16x40_S5000x40_1_0_0_1_n_n.contr.Idx) : (dot_S5000x16_S16x40_S5000x40_1_0_0_1_n_n.lhsIdx i q 0).val = (i 0).val := by
  unfold DotDims.lhsIdx
  rw [dif_neg (show ¬(0 : Fin S5000x16.rank) ∈ dot_S5000x16_S16x40_S5000x40_1_0_0_1_n_n.lhsBatch by decide), dif_pos (show (0 : Fin S5000x16.rank) ∈ dot_S5000x16_S16x40_S5000x40_1_0_0_1_n_n.lhsNonContracting by decide)]
  rfl
theorem lhs_1 (i : S5000x40.Idx) (q : dot_S5000x16_S16x40_S5000x40_1_0_0_1_n_n.contr.Idx) : (dot_S5000x16_S16x40_S5000x40_1_0_0_1_n_n.lhsIdx i q 1).val = (q ⟨0, by decide⟩).val :=
  dot_S5000x16_S16x40_S5000x40_1_0_0_1_n_n.lhsIdx_val_of_single rfl i q
theorem rhs_0 (i : S5000x40.Idx) (q : dot_S5000x16_S16x40_S5000x40_1_0_0_1_n_n.contr.Idx) : (dot_S5000x16_S16x40_S5000x40_1_0_0_1_n_n.rhsIdx i q 0).val = (q ⟨0, by decide⟩).val :=
  dot_S5000x16_S16x40_S5000x40_1_0_0_1_n_n.rhsIdx_val_of_single rfl i q
theorem rhs_1 (i : S5000x40.Idx) (q : dot_S5000x16_S16x40_S5000x40_1_0_0_1_n_n.contr.Idx) : (dot_S5000x16_S16x40_S5000x40_1_0_0_1_n_n.rhsIdx i q 1).val = (i 1).val := by
  unfold DotDims.rhsIdx
  rw [dif_neg (show ¬(1 : Fin S16x40.rank) ∈ dot_S5000x16_S16x40_S5000x40_1_0_0_1_n_n.rhsBatch by decide), dif_pos (show (1 : Fin S16x40.rank) ∈ dot_S5000x16_S16x40_S5000x40_1_0_0_1_n_n.rhsNonContracting by decide)]
  rfl

/-- The product into the zero accumulator, at an index: the sum over the 16 shared coordinates of the left operand
    at (row, c) times the right operand at (c, column). -/
theorem matmul_apply (a : FVec Ideal S5000x16 .bf16) (b : FVec Ideal S16x40 .bf16) (j : S5000x40.Idx) :
    FloatOps.matmul dot_S5000x16_S16x40_S5000x40_1_0_0_1_n_n none a b (constant (F := Ideal) S5000x40 .f32 0x00000000#32) j
      = ∑ k : Fin 16, a (ix2 (j 0) k) * b (ix2 k (j 1)) := by
  rw [Ideal.matmul_constant_zero_apply, ← Equiv.sum_comp (contrEquiv1 dot_S5000x16_S16x40_S5000x40_1_0_0_1_n_n 16 rfl rfl).symm]
  refine Finset.sum_congr rfl fun k _ => ?_
  have hk := contrEquiv1_symm_val dot_S5000x16_S16x40_S5000x40_1_0_0_1_n_n 16 rfl rfl k
  have el : dot_S5000x16_S16x40_S5000x40_1_0_0_1_n_n.lhsIdx j ((contrEquiv1 dot_S5000x16_S16x40_S5000x40_1_0_0_1_n_n 16 rfl rfl).symm k) = ix2 (j 0) k := funext fun a => Fin.ext (by
    match a with
    | ⟨0, _⟩ => exact lhs_0 _ _
    | ⟨1, _⟩ => exact (lhs_1 _ _).trans hk)
  have er : dot_S5000x16_S16x40_S5000x40_1_0_0_1_n_n.rhsIdx j ((contrEquiv1 dot_S5000x16_S16x40_S5000x40_1_0_0_1_n_n 16 rfl rfl).symm k) = ix2 k (j 1) := funext fun a => Fin.ext (by
    match a with
    | ⟨0, _⟩ => exact (rhs_0 _ _).trans hk
    | ⟨1, _⟩ => exact rhs_1 _ _)
  rw [el, er]
  rfl

/-- The body's payload at an index: the cast to the same shape and the narrowing leave both operands unchanged on the
    extended reals. -/
theorem pay_apply (x0 : Vec Ideal S5000x16 .f32) (x1 : Vec Ideal S16x40 .f32) (j : S5000x40.Idx) :
    k3_pay1 x0 x1 j = ∑ k : Fin 16, x0 (ix2 (j 0) k) * x1 (ix2 k (j 1)) := by
  unfold k3_pay1
  refine (matmul_apply (truncf (F := Ideal) .bf16 (shapeCast S5000x16 x0 shapeCasts_S5000x16_S5000x16) bitsLt_bf16_f32)
    (truncf (F := Ideal) .bf16 x1 bitsLt_bf16_f32) j).trans ?_
  rw [shapeCast_self]
  rfl

/-! ## From the blocks to the array -/

theorem zero_offsets : (![0, 0] : Fin 2 → Nat) = fun _ => 0 := funext fun a => by fin_cases a <;> rfl

/-- The printed index maps, decided over the 20 grid points: the left operand's block of rows moves with the output's
    (block t on axis 0), the right operand is one block for every point, and nothing moves on axis 1. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Every block of rows is some point's. -/
theorem idx_onto : ∀ q : Fin 20, ∃ t : Fin cfg3.N, win3_2.index t (0 : Fin 2) = q.val :=
  (by decide +kernel : ∀ q : Fin 20, ∃ t : Fin grid3.N, win3_2.index t (0 : Fin 2) = q.val)

/-- What point `t` writes back is block `t` of the whole-array product of the two arrays as the region finds them. -/
theorem flushed_eq (c : Dev nD) (t : Fin cfg3.N) :
    (dat3 V c).flushed 2 t = ((cfg3.win 2).blk t).view.read (Elt Ideal)
      (Cert.Spec.matProd (n := 100000) (k := 16) (d := 40) (V c main_v48) (V c main_arg5)) := by
  show (cfg3.win 2).cut (grid3.coords t) ((dat3 V c).after 2 t) = _
  rw [after3_2]
  unfold out3_2
  rw [View.canon_unit_zero zero_offsets]
  simp only [View.ld_unit_zero (S := S5000x16) zero_offsets, View.ld_unit_zero (S := S16x40) zero_offsets]
  obtain ⟨e0, e1, e2, e3, e4, e5⟩ := idx_facts t
  funext j
  refine (pay_apply (iblk3 V c 0 t) (iblk3 V c 1 t) _).trans ?_
  have hj0 : (j 0).val < 5000 := (j 0).isLt
  have hj1 : (j 1).val < 40 := (j 1).isLt
  have h0 : ∀ k : Fin 16, ((cfg3.win 0).blk t).view.emb (ix2 (n0 := 5000) (n1 := 16) ⟨(j 0).val, (j 0).isLt⟩ k)
      = ix2 (n0 := 100000) (n1 := 16) ((((cfg3.win 2).blk t).view.emb j) 0) k := by
    intro k; funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 16 + 1 * k.val = k.val; omega
  have h1 : ∀ k : Fin 16, ((cfg3.win 1).blk t).view.emb (ix2 (n0 := 16) (n1 := 40) k ⟨(j 1).val, (j 1).isLt⟩)
      = ix2 (n0 := 16) (n1 := 40) k ((((cfg3.win 2).blk t).view.emb j) 1) := by
    intro k; funext a; apply Fin.ext
    match a with
    | ⟨0, _⟩ => show win3_1.index t (0 : Fin 2) * 16 + 1 * k.val = k.val; omega
    | ⟨1, _⟩ => show win3_1.index t (1 : Fin 2) * 40 + 1 * (j 1).val = win3_2.index t (1 : Fin 2) * 40 + 1 * (j 1).val; omega
  have key : ∀ (A0 : S100000x16.Idx → EReal) (A1 : S16x40.Idx → EReal),
      ∑ k : Fin 16, A0 (((cfg3.win 0).blk t).view.emb (ix2 (n0 := 5000) (n1 := 16) ⟨(j 0).val, (j 0).isLt⟩ k))
          * A1 (((cfg3.win 1).blk t).view.emb (ix2 (n0 := 16) (n1 := 40) k ⟨(j 1).val, (j 1).isLt⟩))
        = ∑ k : Fin 16, A0 (ix2 (n0 := 100000) (n1 := 16) ((((cfg3.win 2).blk t).view.emb j) 0) k)
          * A1 (ix2 (n0 := 16) (n1 := 40) k ((((cfg3.win 2).blk t).view.emb j) 1)) := by
    intro A0 A1
    refine Finset.sum_congr rfl fun k _ => ?_
    rw [h0 k, h1 k]
  exact key (V c main_v48) (V c main_arg5)

/-- An index of the array is in point `t`'s block iff each coordinate is in the block's range on its axis. -/
theorem mem_blk (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v49).slice (win3_2.rect t)).set ↔ _
  rw [View.set_slice_whole, Rect.mem_set_unit]
  exact Iff.rfl

/-- The blocks of rows tile the array: row r lies in the block of point r / 5000. -/
theorem cover (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  obtain ⟨t, ht⟩ := idx_onto ⟨(i 0).val / 5000, by omega⟩
  have q0 : win3_2.index t (0 : Fin 2) = (i 0).val / 5000 := ht
  obtain ⟨e0, e1, e2, e3, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 40 ≤ (i 1).val ∧ (i 1).val < win3_2.index t (1 : Fin 2) * 40 + 40; omega

/-- The array the region leaves is the whole-array product. -/
theorem final3 (c : Dev nD) : (dat3 (F := Ideal) V c).arrAt 2 cfg3.N
    = Cert.Spec.matProd (n := 100000) (k := 16) (d := 40) (V c main_v48) (V c main_arg5) :=
  (dat3 V c).arrAt_eq_of_cover 2 _ (fun t _ => flushed_eq V c t) cover

end Cert.KernelIdeal.Blocks3

end
-- ==== Proof.RefStage3.lean ====
/-
  The reference's second product, read on the extended reals: the host's contraction of the first layer's output with
  the second weight matrix is the whole-array product, entry (p, q) the sum over c of h(p, c) * w(c, q).
-/
import proofs.«139049_j20813411516894_2_alg».proof.Proof.RefRead
import proofs.«139049_j20813411516894_2_alg».proof.Proof.Spec

noncomputable section

namespace Cert.ReferenceIdeal.RefStage3

open Cert.ReferenceIdeal Cert.ReferenceIdeal.Gen Idealize.ShloMosaic Idealize.ShloMosaic.ValueIdx

/-- The contraction's left and right indices at output index `i` and position `k` are (row of `i`, `k`) and
    (`k`, column of `i`). -/
theorem lidx_eq (i : S100000x40.Idx) (k : Fin 16) : Read.lidx_main_v50 i k = ix2 (i 0) k :=
  funext fun a => by match a with | ⟨0, _⟩ => rfl | ⟨1, _⟩ => rfl
theorem ridx_eq (i : S100000x40.Idx) (k : Fin 16) : Read.ridx_main_v50 i k = ix2 k (i 1) :=
  funext fun a => by match a with | ⟨0, _⟩ => rfl | ⟨1, _⟩ => rfl

/-- The reference's second product is the whole-array product of the first layer's output and the second weights. -/
theorem ref50 (x0 : (⟨S100000x256, .f32⟩ : BufTy).Contents (Elt Ideal)) (x1 : (⟨S2x3200000, .i32⟩ : BufTy).Contents (Elt Ideal))
    (x2 : (⟨S3200000, .f32⟩ : BufTy).Contents (Elt Ideal)) (x3 : (⟨S256x16, .f32⟩ : BufTy).Contents (Elt Ideal))
    (x4 : (⟨S16, .f32⟩ : BufTy).Contents (Elt Ideal)) (x5 : (⟨S16x40, .f32⟩ : BufTy).Contents (Elt Ideal)) :
    Read.val_main_v50 (F := Ideal) x0 x1 x2 x3 x4 x5
      = Cert.Spec.matProd (Read.val_main_v49 (F := Ideal) x0 x1 x2 x3 x4) x5 := by
  funext i
  refine (Read.val_main_v50_apply x0 x1 x2 x3 x4 x5 i).trans ?_
  generalize Read.val_main_v49 (F := Ideal) x0 x1 x2 x3 x4 = y
  refine Finset.sum_congr rfl fun k _ => ?_
  rw [lidx_eq, ridx_eq] <;> rfl

end Cert.ReferenceIdeal.RefStage3

end
-- ==== Proof.Blocks4.lean ====
/-
  Region 4 (row scaling, 40 columns): the array the region leaves is, index by index, the product of the input
  array's entry with its row's scalar.

  Each grid point t multiplies the 8192 x 40 block of rows t*8192 ... t*8192+8191 by the length-8192 stretch of the
  scalar vector at the same rows, viewed as a column and repeated along the 40 columns. The output's blocks tile
  the whole array, so what the points write back, block by block, is the one whole-array function.
-/
import proofs.«139049_j20813411516894_2_alg».proof.Proof.Gen.KernelIdeal.Frame
import proofs.«139049_j20813411516894_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## A vector as a column, and a column repeated along the rows' second axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- The payload at row `p`, column `q` of the block: the block's entry times the scalar of row `p`. -/
theorem pay_apply (x0 : Vec Ideal S8192x40 .f32) (x1 : Vec Ideal S8192 .f32) (p : Fin 8192) (q : Fin 40) :
    k4_pay1 (F := Ideal) x0 x1 (ix2 p q) = x0 (ix2 p q) * x1 (ix1 p) := by
  unfold k4_pay1
  rw [mulf_apply, shapeCast_self, shapeCast_self, broadcastTo_a1_ab_apply, shapeCast_a_a1_apply]

/-- The same at any index of the block. -/
theorem pay_eq (x0 : Vec Ideal S8192x40 .f32) (x1 : Vec Ideal S8192 .f32) (j : S8192x40.Idx) :
    k4_pay1 (F := Ideal) x0 x1 j = x0 j * x1 (ix1 (j 0)) := by
  obtain ⟨p, q, rfl⟩ : ∃ (p : Fin 8192) (q : Fin 40), j = ix2 p q := ⟨j 0, j 1, eq_ix2 j⟩
  exact pay_apply x0 x1 p q

/-! ## The index maps over the grid -/

theorem hz2 : (![0, 0] : Fin 2 → Nat) = fun _ => 0 := funext fun a => by fin_cases a <;> rfl
theorem hz1 : (![0] : Fin 1 → Nat) = fun _ => 0 := funext fun a => by fin_cases a; rfl

/-- Both inputs' blocks move with the output's: at point `t` all three are block number `t` along the rows, and the
    two-axis windows stay at block 0 along the columns. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 1) = win4_2.index t (0 : Fin 2)
    ∧ win4_2.index t (0 : Fin 2) = t.val
    ∧ win4_2.index t (1 : Fin 2) = 0 :=
  (by decide +kernel : ∀ t : Fin grid4.N, _)

/-! ## What a point writes back -/

/-- Two arrays read at equal indices have equal products of their entries. -/
theorem mul_read_congr {A B : Type} (f : A → EReal) (g : B → EReal) {a a' : A} {b b' : B} (ha : a = a') (hb : b = b') :
    f a * g b = f a' * g b' := by rw [ha, hb]

/-- What point `t` writes back is block `t` of the row-scaled array. -/
theorem flushed_eq (c : Dev nD) (t : Fin cfg4.N) :
    (dat4 (F := Ideal) V c).flushed 2 t
      = ((cfg4.win 2).blk t).view.read (Elt Ideal) (Cert.Spec.rowScale (V c main_v57) (V c main_v58)) := by
  show (cfg4.win 2).cut (grid4.coords t) ((dat4 V c).after 2 t) = _
  rw [after4_2]
  unfold out4_2
  rw [View.canon_unit_zero hz2]
  simp only [View.ld_unit_zero (S := S8192x40) hz2, View.ld_unit_zero (S := S8192) hz1]
  obtain ⟨e0, e1, e2, e3, e4⟩ := idx_facts t
  funext j
  refine (pay_eq _ _ j).trans ?_
  have h0 : ((cfg4.win 0).blk t).view.emb j = ((cfg4.win 2).blk t).view.emb j := by
    funext a; apply Fin.ext
    match a with
    | ⟨0, _⟩ => show win4_0.index t (0 : Fin 2) * 8192 + 1 * (j 0).val = win4_2.index t (0 : Fin 2) * 8192 + 1 * (j 0).val; omega
    | ⟨1, _⟩ => show win4_0.index t (1 : Fin 2) * 40 + 1 * (j 1).val = win4_2.index t (1 : Fin 2) * 40 + 1 * (j 1).val; omega
  have h1 : ((cfg4.win 1).blk t).view.emb (ix1 (j 0)) = ix1 ((((cfg4.win 2).blk t).view.emb j) 0) := by
    funext a; apply Fin.ext
    match a with
    | ⟨0, _⟩ => show win4_1.index t (0 : Fin 1) * 8192 + 1 * (j 0).val = win4_2.index t (0 : Fin 2) * 8192 + 1 * (j 0).val; omega
  exact mul_read_congr (V c main_v57) (V c main_v58) h0 h1

/-! ## The blocks tile the array -/

/-- An index of the array is in point `t`'s block iff each coordinate is in the block's range on its axis. -/
theorem mem_blk (t : Fin cfg4.N) (i : S3301376x40.Idx) :
    i ∈ ((cfg4.win 2).blk t).view.set ↔ ∀ a : Fin 2, win4_2.index t a * S8192x40.size a ≤ (i a).val
      ∧ (i a).val < win4_2.index t a * S8192x40.size a + S8192x40.size a := by
  show i ∈ ((View.whole main_v59).slice (win4_2.rect t)).set ↔ _
  rw [View.set_slice_whole, Rect.mem_set_unit]
  exact Iff.rfl

/-- Row `r` of the array lies in the block of point `r / 8192`. -/
theorem cover (i : S3301376x40.Idx) :
    ∃ t : Fin cfg4.N, (cfg4.win 2).flush t = true ∧ i ∈ ((cfg4.win 2).blk t).view.set := by
  have hi0 : (i 0).val < 3301376 := (i 0).isLt
  have hi1 : (i 1).val < 40 := (i 1).isLt
  have hN : cfg4.N = 403 := rfl
  have ht : (i 0).val / 8192 < cfg4.N := by rw [hN]; omega
  obtain ⟨e0, e1, e2, e3, e4⟩ := idx_facts ⟨(i 0).val / 8192, ht⟩
  have e3' : win4_2.index ⟨(i 0).val / 8192, ht⟩ (0 : Fin 2) = (i 0).val / 8192 := e3
  refine ⟨⟨(i 0).val / 8192, ht⟩, flush4_2 _, ?_⟩
  rw [mem_blk]
  intro a
  match a with
  | ⟨0, _⟩ =>
    show win4_2.index ⟨(i 0).val / 8192, ht⟩ (0 : Fin 2) * 8192 ≤ (i 0).val
      ∧ (i 0).val < win4_2.index ⟨(i 0).val / 8192, ht⟩ (0 : Fin 2) * 8192 + 8192
    omega
  | ⟨1, _⟩ =>
    show win4_2.index ⟨(i 0).val / 8192, ht⟩ (1 : Fin 2) * 40 ≤ (i 1).val
      ∧ (i 1).val < win4_2.index ⟨(i 0).val / 8192, ht⟩ (1 : Fin 2) * 40 + 40
    omega

/-! ## The array after the region -/

/-- The array the region leaves: every row of the first input times that row's scalar. -/
theorem final4 (c : Dev nD) :
    (dat4 (F := Ideal) V c).arrAt 2 cfg4.N = Cert.Spec.rowScale (V c main_v57) (V c main_v58) :=
  (dat4 V c).arrAt_eq_of_cover 2 _ (fun t _ => flushed_eq V c t) cover

end Cert.KernelIdeal.Blocks4

end
-- ==== Proof.RefStage4.lean ====
/-
  The reference's second row scaling: the gathered rows of the second layer, each multiplied by its edge's scalar.
  The scalar vector is repeated along a unit axis and then along the 40 columns before the pointwise product, so the
  product's entry at (p, q) is the gathered entry at (p, q) times the scalar at p.
-/
import proofs.«139049_j20813411516894_2_alg».proof.Proof.RefRead
import proofs.«139049_j20813411516894_2_alg».proof.Proof.Spec
import Idealize.ShloMosaic.Lib.ValueIdx
import Idealize.ShloMosaic.PureOps.Ideal.Laws

noncomputable section

namespace Cert.ReferenceIdeal.RefStage4

open Cert.ReferenceIdeal Idealize.ShloMosaic Idealize.ShloMosaic.ValueIdx

/-- The reference's scaled rows are the row scaling of the gathered rows by the edge scalars. -/
theorem ref60 (x0 : (⟨S100000x256, .f32⟩ : BufTy).Contents (Elt Ideal)) (x1 : (⟨S2x3200000, .i32⟩ : BufTy).Contents (Elt Ideal))
    (x2 : (⟨S3200000, .f32⟩ : BufTy).Contents (Elt Ideal)) (x3 : (⟨S256x16, .f32⟩ : BufTy).Contents (Elt Ideal))
    (x4 : (⟨S16, .f32⟩ : BufTy).Contents (Elt Ideal)) (x5 : (⟨S16x40, .f32⟩ : BufTy).Contents (Elt Ideal)) :
    Read.val_main_v60 x0 x1 x2 x3 x4 x5
      = Cert.Spec.rowScale (Read.val_main_v57 x0 x1 x2 x3 x4 x5) (Read.val_main_v31 x1 x2) := by
  funext i
  have hi : Read.idx_main_v58 (Read.idx_main_v59 i) = ix1 (i 0) :=
    funext fun a => Fin.ext (by match a with | ⟨0, _⟩ => rfl)
  rw [Read.val_main_v60_apply, Read.val_main_v59_apply, Read.val_main_v58_apply, hi]
  rfl

end Cert.ReferenceIdeal.RefStage4

end
-- ==== Proof.LibRowReduce.lean ====
/-
  A row of an n×d array reduced along its d entries, read at the row, at the ideal values.

  * The sum over the second axis of an n×d array, read at row p, is the sum over c of the entries (p, c).
  * The maximum over the second axis, folded from the -inf literal, read at row p, is the fold of max from that literal
    over c of the entries (p, c).
  Both are the library's reading of a one-axis reduction with the index that has the reduced coordinate inserted written
  out by its two coordinates; the accumulator's hypothesis is typed as the printed programs type it.
-/
import Idealize.ShloMosaic.Lib.ValueIdx
import Idealize.ShloMosaic.PureOps.Ideal.Laws

namespace Cert.LibRowReduce

open Idealize.ShloMosaic Idealize.ShloMosaic.ValueIdx

/-- The sum over the second axis of an n×d array, read at row p. -/
theorem sum_axis1_apply {n d : ℕ} (x : FVec Ideal ⟨2, ![n, d]⟩ .f32) (h : (⟨2, ![n, d]⟩ : Shape).Reduces [1] ⟨1, ![n]⟩)
    (hφ : FKind.Formats .f32) (hacc : (0x00000000#32 : BitVec 32) = FKind.add.neutral .f32 hφ) (p : Fin n) :
    multiReduction .add [1] ⟨1, ![n]⟩ x 0x00000000#32 h hφ hacc (ix1 p) = ∑ c : Fin d, x (ix2 p c) := by
  refine (Ideal.multiReduction_add_single x _ h hφ hacc (ix1 p)).trans ?_
  refine Finset.sum_congr rfl fun c _ => congrArg x ?_
  funext ax; apply Fin.ext
  match ax with
  | ⟨0, _⟩ => rfl
  | ⟨1, _⟩ => rfl

/-- The maximum over the second axis of an n×d array, folded from -inf, read at row p. -/
theorem max_axis1_apply {n d : ℕ} (z : FVec Ideal ⟨2, ![n, d]⟩ .f32) (h : (⟨2, ![n, d]⟩ : Shape).Reduces [1] ⟨1, ![n]⟩)
    (hφ : FKind.Formats .f32) (hacc : (0xFF800000#32 : BitVec 32) = FKind.maximumf.neutral .f32 hφ) (p : Fin n) :
    multiReduction .maximumf [1] ⟨1, ![n]⟩ z 0xFF800000#32 h hφ hacc (ix1 p)
      = (Finset.univ : Finset (Fin d)).fold max (Ideal.ofBits .f32 0xFF800000#32) fun c : Fin d => z (ix2 p c) := by
  refine (Ideal.multiReduction_maximumf_single z _ h hφ hacc (ix1 p)).trans ?_
  refine Finset.fold_congr fun c _ => congrArg z ?_
  funext ax; apply Fin.ext
  match ax with
  | ⟨0, _⟩ => rfl
  | ⟨1, _⟩ => rfl

end Cert.LibRowReduce
-- ==== Proof.LibKeepdimsCol.lean ====
/-
  Two layout operations read at an index, for a column kept by a row reduction: a vector of length a cast to an
  [a, 1] column reads the vector's entry, and an [a, 1] column broadcast to [a, b] reads the row's one entry.
-/
import Idealize.ShloMosaic.Lib.Pipeline.Value
import Idealize.ShloMosaic.Lib.ValueIdx

noncomputable section

namespace Cert.LibKeepdimsCol

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibKeepdimsCol

end
-- ==== Proof.Blocks5.lean ====
/-
  Region 5 of the two-layer graph convolution: the bias plus log-softmax stage, from its blocks to the whole array.

  The stage's body takes a block of 5000 rows of the 100000 x 40 array and the one 1 x 40 row, and writes, at row p and
  column q of the block, z(p, q) - M(p) - log (sum over c of exp (z(p, c) - M(p))), where z(p, c) is the block's entry
  plus the row's entry at c, and M(p) is the maximum of z(p, .) folded from the -inf word. Since the value at (p, q)
  depends on row p alone, and row p of the block at grid point t is row t * 5000 + p of the array, every block the
  stage writes back is the block of ONE function of the two arrays, Spec.biasLogSoftmax; the twenty blocks tile the
  array, so the array ends holding that function.
-/
import proofs.«139049_j20813411516894_2_alg».proof.Proof.Gen.KernelIdeal.Frame
import proofs.«139049_j20813411516894_2_alg».proof.Proof.Spec
import proofs.«139049_j20813411516894_2_alg».proof.Proof.LibRowReduce
import proofs.«139049_j20813411516894_2_alg».proof.Proof.LibKeepdimsCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks5

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's payload, stage by stage -/

/-- The logits of a block: the block plus the one row broadcast over its rows. -/
def logits (x0 : Vec Ideal S5000x40 .f32) (x1 : Vec Ideal S1x40 .f32) : FVec Ideal S5000x40 .f32 :=
  addf (shapeCast S5000x40 x0 shapeCasts_S5000x40_S5000x40)
    (broadcastTo S5000x40 (shapeCast S1x40 x1 shapeCasts_S1x40_S1x40) broadcasts_S1x40_S5000x40)

/-- Each row's maximum, folded from the -inf word, kept as a column and broadcast back over the row. -/
def maxCol (v : FVec Ideal S5000x40 .f32) : FVec Ideal S5000x40 .f32 :=
  broadcastTo S5000x40
    (shapeCast S5000x1 (multiReduction .maximumf [1] S5000 v 0xFF800000#32 reduces_S5000x40_S5000 (.inl rfl) rfl)
      shapeCasts_S5000_S5000x1) broadcasts_S5000x1_S5000x40

/-- The logarithm of each row's sum, kept as a column and broadcast back over the row. -/
def logSumCol (v : FVec Ideal S5000x40 .f32) : FVec Ideal S5000x40 .f32 :=
  broadcastTo S5000x40
    (log (shapeCast S5000x1 (multiReduction .add [1] S5000 v 0x00000000#32 reduces_S5000x40_S5000 (.inl rfl) rfl)
      shapeCasts_S5000_S5000x1)) broadcasts_S5000x1_S5000x40

/-- The payload is the logits minus their row maximum, minus the log of the row sum of the exponentials of that. -/
theorem pay_eq (x0 : Vec Ideal S5000x40 .f32) (x1 : Vec Ideal S1x40 .f32) :
    Gen.k5_pay1 (F := Ideal) x0 x1
      = subf (subf (logits x0 x1) (maxCol (logits x0 x1)))
          (logSumCol (exp (subf (logits x0 x1) (maxCol (logits x0 x1))))) := rfl

/-- The logits at (p, c): the shifted entry. -/
theorem logits_apply (x0 : Vec Ideal S5000x40 .f32) (x1 : Vec Ideal S1x40 .f32) (p : Fin 5000) (c : Fin 40) :
    logits x0 x1 (ix2 p c) = Cert.Spec.shifted x0 x1 p c := by
  unfold logits
  rw [addf_apply, shapeCast_self, shapeCast_self, broadcastTo_1b_ab_apply]
  rfl

/-- The row maximum at (p, q): the fold of max from the -inf word over row p. -/
theorem maxCol_apply (v : FVec Ideal S5000x40 .f32) (p : Fin 5000) (q : Fin 40) :
    maxCol v (ix2 p q)
      = (Finset.univ : Finset (Fin 40)).fold max (Ideal.ofBits .f32 0xFF800000#32) fun c : Fin 40 => v (ix2 p c) := by
  unfold maxCol
  rw [Cert.LibKeepdimsCol.broadcastTo_a1_ab_apply, Cert.LibKeepdimsCol.shapeCast_a_a1_apply]
  exact Cert.LibRowReduce.max_axis1_apply v _ _ _ p

/-- The log of the row sum at (p, q). -/
theorem logSumCol_apply (v : FVec Ideal S5000x40 .f32) (p : Fin 5000) (q : Fin 40) :
    logSumCol v (ix2 p q) = Ideal.log (∑ c : Fin 40, v (ix2 p c)) := by
  unfold logSumCol
  rw [Cert.LibKeepdimsCol.broadcastTo_a1_ab_apply]
  show Ideal.log (shapeCast S5000x1 (multiReduction .add [1] S5000 v 0x00000000#32 reduces_S5000x40_S5000 (.inl rfl) rfl)
      shapeCasts_S5000_S5000x1 (ix2 p (0 : Fin 1))) = _
  rw [Cert.LibKeepdimsCol.shapeCast_a_a1_apply]
  exact congrArg Ideal.log (Cert.LibRowReduce.sum_axis1_apply v _ _ _ p)

/-- THE PAYLOAD AT AN INDEX: the block-level log-softmax of the shifted block. -/
theorem pay_apply (x0 : Vec Ideal S5000x40 .f32) (x1 : Vec Ideal S1x40 .f32) (p : Fin 5000) (q : Fin 40) :
    Gen.k5_pay1 (F := Ideal) x0 x1 (ix2 p q) = Cert.Spec.biasLogSoftmax x0 x1 (ix2 p q) := by
  have hz : ∀ c : Fin 40, logits x0 x1 (ix2 p c) = Cert.Spec.shifted x0 x1 p c := fun c => logits_apply x0 x1 p c
  have hM : ∀ c : Fin 40, maxCol (logits x0 x1) (ix2 p c) = Cert.Spec.rowMax x0 x1 p := fun c =>
    (maxCol_apply _ p c).trans (Finset.fold_congr fun c' _ => hz c')
  have h9 : ∀ c : Fin 40, subf (logits x0 x1) (maxCol (logits x0 x1)) (ix2 p c)
      = Cert.Spec.shifted x0 x1 p c - Cert.Spec.rowMax x0 x1 p := fun c => by
    rw [subf_apply, hz, hM]
  have h10 : ∀ c : Fin 40, exp (subf (logits x0 x1) (maxCol (logits x0 x1))) (ix2 p c)
      = Ideal.exp (Cert.Spec.shifted x0 x1 p c - Cert.Spec.rowMax x0 x1 p) := fun c =>
    congrArg Ideal.exp (h9 c)
  rw [pay_eq, subf_apply, h9, logSumCol_apply, Finset.sum_congr rfl fun c _ => h10 c]
  rfl

/-- The payload is the block-level function. -/
theorem pay_eq_spec (x0 : Vec Ideal S5000x40 .f32) (x1 : Vec Ideal S1x40 .f32) :
    Gen.k5_pay1 (F := Ideal) x0 x1 = Cert.Spec.biasLogSoftmax x0 x1 := by
  funext j
  obtain ⟨p, q, rfl⟩ : ∃ (p : Fin 5000) (q : Fin 40), j = ix2 p q := ⟨j 0, j 1, eq_ix2 j⟩
  exact pay_apply x0 x1 p q

/-- The log-softmax of a shifted row depends on the row alone: two arrays that agree along row p of one and row P of the
    other, under rows b and B that agree, have the same value there. -/
theorem biasLogSoftmax_of_rows {n N d : ℕ} (a : (⟨2, ![n, d]⟩ : Shape).Idx → EReal) (b : (⟨2, ![1, d]⟩ : Shape).Idx → EReal)
    (A : (⟨2, ![N, d]⟩ : Shape).Idx → EReal) (B : (⟨2, ![1, d]⟩ : Shape).Idx → EReal) (p : Fin n) (P : Fin N) (q : Fin d)
    (ha : ∀ c : Fin d, a (ix2 p c) = A (ix2 P c)) (hb : ∀ c : Fin d, b (ix2 0 c) = B (ix2 0 c)) :
    Cert.Spec.biasLogSoftmax a b (ix2 p q) = Cert.Spec.biasLogSoftmax A B (ix2 P q) := by
  have hs : ∀ c : Fin d, Cert.Spec.shifted a b p c = Cert.Spec.shifted A B P c := fun c => by
    unfold Cert.Spec.shifted; rw [ha, hb]
  have hM : Cert.Spec.rowMax a b p = Cert.Spec.rowMax A B P := Finset.fold_congr fun c _ => hs c
  show (Cert.Spec.shifted a b p q - Cert.Spec.rowMax a b p)
      - Ideal.log (∑ c : Fin d, Ideal.exp (Cert.Spec.shifted a b p c - Cert.Spec.rowMax a b p))
    = (Cert.Spec.shifted A B P q - Cert.Spec.rowMax A B P)
      - Ideal.log (∑ c : Fin d, Ideal.exp (Cert.Spec.shifted A B P c - Cert.Spec.rowMax A B P))
  rw [hM, hs q, Finset.sum_congr rfl fun c _ => congrArg (fun z => Ideal.exp (z - Cert.Spec.rowMax A B P)) (hs c)]

/-! ## From the blocks to the array -/

theorem hz : (![0, 0] : Fin 2 → Nat) = fun _ => 0 := funext fun a => by fin_cases a <;> rfl

/-- The printed index maps, decided over the grid: the input block moves with the output block along the rows, every
    block sits at column block 0, the row is always block 0, and the output's row block at point t is t. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

variable (V : (c : Dev nD) → (b : Ref sig .tc) → Buf (Elt Ideal) ((c : Thread nD τ).loc b))

/-- WHAT POINT t WRITES BACK is block t of the log-softmax of the shifted array: the block's row p is the array's row
    t * 5000 + p, read along the whole row. -/
theorem flushed_eq (c : Dev nD) (t : Fin cfg5.N) :
    (dat5 (F := Ideal) V c).flushed 2 t
      = ((cfg5.win 2).blk t).view.read (Elt Ideal) (Cert.Spec.biasLogSoftmax (V c main_v63) (V c main_v64)) := by
  show (cfg5.win 2).cut (grid5.coords t) ((dat5 V c).after 2 t) = _
  rw [after5_2]
  unfold out5_2
  rw [View.canon_unit_zero hz]
  simp only [View.ld_unit_zero (S := S5000x40) hz, View.ld_unit_zero (S := S1x40) hz]
  obtain ⟨e0, e1, e2, e3, e4, e5⟩ := idx_facts t
  funext j
  show Gen.k5_pay1 (F := Ideal) (iblk5 V c 0 t) (iblk5 V c 1 t) j
    = Cert.Spec.biasLogSoftmax (V c main_v63) (V c main_v64) (((cfg5.win 2).blk t).view.emb j)
  have hemb : ((cfg5.win 2).blk t).view.emb j = ix2 (((cfg5.win 2).blk t).view.emb j 0) (j 1) := by
    funext a; apply Fin.ext
    match a with
    | ⟨0, _⟩ => rfl
    | ⟨1, _⟩ => show win5_2.index t (1 : Fin 2) * 40 + 1 * (j 1).val = (j 1).val; rw [e5]; omega
  have ha : ∀ cc : Fin 40, iblk5 V c 0 t (ix2 (j 0) cc) = V c main_v63 (ix2 (((cfg5.win 2).blk t).view.emb j 0) cc) := fun cc => by
    show V c main_v63 (((cfg5.win 0).blk t).view.emb (ix2 (j 0) cc)) = V c main_v63 (ix2 (((cfg5.win 2).blk t).view.emb j 0) cc)
    refine congrArg _ ?_
    funext a; apply Fin.ext
    match a with
    | ⟨0, _⟩ => show win5_0.index t (0 : Fin 2) * 5000 + 1 * (j 0).val = win5_2.index t (0 : Fin 2) * 5000 + 1 * (j 0).val; rw [e0]
    | ⟨1, _⟩ => show win5_0.index t (1 : Fin 2) * 40 + 1 * cc.val = cc.val; rw [e1]; omega
  have hb : ∀ cc : Fin 40, iblk5 V c 1 t (ix2 (0 : Fin 1) cc) = V c main_v64 (ix2 (0 : Fin 1) cc) := fun cc => by
    show V c main_v64 (((cfg5.win 1).blk t).view.emb (ix2 (0 : Fin 1) cc)) = V c main_v64 (ix2 (0 : Fin 1) cc)
    refine congrArg _ ?_
    funext a; apply Fin.ext
    match a with
    | ⟨0, _⟩ => show win5_1.index t (0 : Fin 2) * 1 + 1 * 0 = 0; rw [e2]
    | ⟨1, _⟩ => show win5_1.index t (1 : Fin 2) * 40 + 1 * cc.val = cc.val; rw [e3]; omega
  refine (congrFun (pay_eq_spec (iblk5 V c 0 t) (iblk5 V c 1 t)) j).trans ?_
  refine Eq.trans ?_ (congrArg (Cert.Spec.biasLogSoftmax (V c main_v63) (V c main_v64)) hemb.symm)
  exact (congrArg (Cert.Spec.biasLogSoftmax (iblk5 V c 0 t) (iblk5 V c 1 t)) (eq_ix2 j)).trans
    (biasLogSoftmax_of_rows (iblk5 V c 0 t) (iblk5 V c 1 t) (V c main_v63) (V c main_v64) (j 0)
      (((cfg5.win 2).blk t).view.emb j 0) (j 1) ha hb)

/-- An index of the array is in point t's block iff each coordinate is in the block's range on its axis. -/
theorem mem_blk (t : Fin cfg5.N) (i : S100000x40.Idx) :
    i ∈ ((cfg5.win 2).blk t).view.set ↔ ∀ a : Fin 2, win5_2.index t a * S5000x40.size a ≤ (i a).val
      ∧ (i a).val < win5_2.index t a * S5000x40.size a + S5000x40.size a := by
  show i ∈ ((View.whole main_v65).slice (win5_2.rect t)).set ↔ _
  rw [View.set_slice_whole, Rect.mem_set_unit]
  exact Iff.rfl

/-- Every index of the array is in some point's block: row r is in the block of point r / 5000. -/
theorem cover (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  obtain ⟨t, ht⟩ : ∃ t : Fin cfg5.N, t.val = (i 0).val / 5000 :=
    ⟨⟨(i 0).val / 5000, by show (i 0).val / 5000 < 20; omega⟩, rfl⟩
  obtain ⟨e0, e1, e2, e3, e4, e5⟩ := idx_facts t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    rw [e4, ht]; omega
  | ⟨1, _⟩ =>
    show win5_2.index t (1 : Fin 2) * 40 ≤ (i 1).val ∧ (i 1).val < win5_2.index t (1 : Fin 2) * 40 + 40
    rw [e5]; omega

/-- THE ARRAY after the run: the log-softmax of the shifted array, whole. -/
theorem final5 (c : Dev nD) :
    (dat5 (F := Ideal) V c).arrAt 2 cfg5.N = Cert.Spec.biasLogSoftmax (V c main_v63) (V c main_v64) :=
  (dat5 (F := Ideal) V c).arrAt_eq_of_cover 2 _ (fun t _ => flushed_eq V c t) cover

end Cert.KernelIdeal.Blocks5

end
-- ==== Proof.RefStage5.lean ====
/-
  The reference's last stage, the bias plus log-softmax, as one function of the array before it and the bias vector.

  The reference adds the length-40 vector to every row of the 100000 x 40 array (through a 1 x 40 row broadcast down the
  rows), takes each row's maximum by a fold of max from the -inf word and once more the maximum of that word with the
  fold (which changes nothing: the fold is already at least the word it starts from), subtracts it, exponentiates, sums
  each row from the zero word (the real 0), takes the logarithm and subtracts again. Index by index this is
  Spec.biasLogSoftmax of the array and the row  i -> x6 (i 1).
-/
import proofs.«139049_j20813411516894_2_alg».proof.Proof.RefRead
import proofs.«139049_j20813411516894_2_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefStage5

open Cert.ReferenceIdeal Cert.ReferenceIdeal.Gen Idealize.ShloMosaic Idealize.ShloMosaic.TcCoe Idealize.SL.Sem
open Idealize.ShloMosaic.StableHlo Idealize.ShloMosaic.ValueIdx

/-- A host reduce with a maximum body over the second axis of an n x d array of extended reals, read at row p: the fold
    of max from the initial value's one element over the row's entries. -/
theorem hostRowMax_apply {n d : ℕ} {u : Shape} (Z : (⟨2, ![n, d]⟩ : Shape).Idx → EReal) (init : u.Idx → EReal)
    (h' : (⟨2, ![n, d]⟩ : Shape).ReducesTo [1] ⟨1, ![n]⟩) (h : (⟨2, ![n, d]⟩ : Shape).Reduces [1] ⟨1, ![n]⟩)
    (hu : 0 < u.numel) (p : Fin n) :
    Host.reduce (FloatOps.maximumf (F := Ideal) (φ := .f32)) Z init h' hu (ix1 p)
      = (Finset.univ : Finset (Fin d)).fold max (init (Shape.Idx.first hu)) fun c : Fin d => Z (ix2 p c) := by
  refine (Host.reduce_eq_fold_single (FloatOps.maximumf (F := Ideal) (φ := .f32)) Z init h' h hu (ix1 p)).trans ?_
  show (Finset.univ : Finset (Fin d)).fold max (init (Shape.Idx.first hu)) (Z ∘ h.lift (ix1 p)) = _
  refine Finset.fold_congr fun c _ => congrArg Z ?_
  funext ax; apply Fin.ext
  match ax with
  | ⟨0, _⟩ => rfl
  | ⟨1, _⟩ => rfl

/-- The reference's last stage is the log-softmax of the array before it shifted by the bias row. -/
theorem ref67 (x0 : (⟨S100000x256, .f32⟩ : BufTy).Contents (Elt Ideal)) (x1 : (⟨S2x3200000, .i32⟩ : BufTy).Contents (Elt Ideal))
    (x2 : (⟨S3200000, .f32⟩ : BufTy).Contents (Elt Ideal)) (x3 : (⟨S256x16, .f32⟩ : BufTy).Contents (Elt Ideal))
    (x4 : (⟨S16, .f32⟩ : BufTy).Contents (Elt Ideal)) (x5 : (⟨S16x40, .f32⟩ : BufTy).Contents (Elt Ideal))
    (x6 : (⟨S40, .f32⟩ : BufTy).Contents (Elt Ideal)) :
    Read.val_main_v67 (F := Ideal) x0 x1 x2 x3 x4 x5 x6
      = Cert.Spec.biasLogSoftmax (Read.val_main_v63 (F := Ideal) x0 x1 x2 x3 x4 x5) (fun i => x6 (ix1 (i 1))) := by
  -- the shifted array
  have hz : ∀ (p : Fin 100000) (c : Fin 40), Read.val_main_v66 (F := Ideal) x0 x1 x2 x3 x4 x5 x6 (ix2 p c)
      = Cert.Spec.shifted (Read.val_main_v63 (F := Ideal) x0 x1 x2 x3 x4 x5) (fun i => x6 (ix1 (i 1))) p c := by
    intro p c
    rw [Read.val_main_v66_apply, Read.val_main_v65_apply, Read.val_main_v64_apply]
    generalize Read.val_main_v63 (F := Ideal) x0 x1 x2 x3 x4 x5 = A
    show A (ix2 p c) + x6 (Read.idx_main_v64 (Read.idx_main_v65 (ix2 p c))) = A (ix2 p c) + x6 (ix1 c)
    refine congrArg (A (ix2 p c) + ·) (congrArg x6 ?_)
    funext a; apply Fin.ext
    match a with
    | ⟨0, _⟩ => rfl
  revert hz
  generalize Read.val_main_v63 (F := Ideal) x0 x1 x2 x3 x4 x5 = A
  generalize hb : (fun i : (⟨2, ![1, 40]⟩ : Shape).Idx => x6 (ix1 (i 1))) = b
  intro hz
  -- each row's maximum
  have hM : ∀ p : Fin 100000, Read.val_main_call2_v2 (F := Ideal) x0 x1 x2 x3 x4 x5 x6 (ix1 p) = Cert.Spec.rowMax A b p := by
    intro p
    rw [Read.val_main_call2_v2_apply, Read.val_main_call2_v1_apply, Read.val_main_call2_cst_0_apply]
    unfold Read.val_main_call2_v0
    rw [hostRowMax_apply (Read.val_main_v66 (F := Ideal) x0 x1 x2 x3 x4 x5 x6) _ reducesTo_S100000x40_S100000_d1 (by decide) h_S_ p]
    show max (Ideal.ofBits .f32 0xFF800000#32) ((Finset.univ : Finset (Fin 40)).fold max (Ideal.ofBits .f32 0xFF800000#32)
        fun c : Fin 40 => Read.val_main_v66 (F := Ideal) x0 x1 x2 x3 x4 x5 x6 (ix2 p c)) = Cert.Spec.rowMax A b p
    rw [max_eq_right ((Finset.le_fold_max _).mpr (Or.inl le_rfl))]
    exact Finset.fold_congr fun c _ => hz p c
  have h4 : ∀ (p : Fin 100000) (c : Fin 40), Read.val_main_call2_v4 (F := Ideal) x0 x1 x2 x3 x4 x5 x6 (ix2 p c)
      = Cert.Spec.rowMax A b p := by
    intro p c
    rw [Read.val_main_call2_v4_apply, Read.val_main_call2_v3_apply]
    refine Eq.trans (congrArg _ ?_) (hM p)
    funext a; apply Fin.ext
    match a with
    | ⟨0, _⟩ => rfl
  have h5 : ∀ (p : Fin 100000) (c : Fin 40), Read.val_main_call2_v5 (F := Ideal) x0 x1 x2 x3 x4 x5 x6 (ix2 p c)
      = Cert.Spec.shifted A b p c - Cert.Spec.rowMax A b p := by
    intro p c
    rw [Read.val_main_call2_v5_apply, hz, h4]
    rfl
  have h6 : ∀ (p : Fin 100000) (c : Fin 40), Read.val_main_call2_v6 (F := Ideal) x0 x1 x2 x3 x4 x5 x6 (ix2 p c)
      = Ideal.exp (Cert.Spec.shifted A b p c - Cert.Spec.rowMax A b p) := by
    intro p c
    rw [Read.val_main_call2_v6_apply, h5]
    rfl
  have h7 : ∀ p : Fin 100000, Read.val_main_call2_v7 (F := Ideal) x0 x1 x2 x3 x4 x5 x6 (ix1 p)
      = ∑ c : Fin 40, Ideal.exp (Cert.Spec.shifted A b p c - Cert.Spec.rowMax A b p) := by
    intro p
    rw [Read.val_main_call2_v7_apply, Read.val_main_call2_cst_1_apply]
    show Ideal.ofBits .f32 0x00000000#32 + ∑ k : Fin 40, Read.val_main_call2_v6 (F := Ideal) x0 x1 x2 x3 x4 x5 x6
        (Read.idx_main_call2_v7 (ix1 p) k) = _
    rw [Ideal.ofBits_zero_f32, zero_add]
    refine Finset.sum_congr rfl fun k _ => Eq.trans (congrArg _ ?_) (h6 p k)
    funext a; apply Fin.ext
    match a with
    | ⟨0, _⟩ => rfl
    | ⟨1, _⟩ => rfl
  have h10 : ∀ (p : Fin 100000) (c : Fin 40), Read.val_main_call2_v10 (F := Ideal) x0 x1 x2 x3 x4 x5 x6 (ix2 p c)
      = Ideal.log (∑ c : Fin 40, Ideal.exp (Cert.Spec.shifted A b p c - Cert.Spec.rowMax A b p)) := by
    intro p c
    rw [Read.val_main_call2_v10_apply, Read.val_main_call2_v9_apply, Read.val_main_call2_v8_apply, Ideal.hostUnary_log_def]
    refine congrArg Ideal.log (Eq.trans (congrArg _ ?_) (h7 p))
    funext a; apply Fin.ext
    match a with
    | ⟨0, _⟩ => rfl
  funext i
  obtain ⟨p, q, rfl⟩ : ∃ (p : Fin 100000) (q : Fin 40), i = ix2 p q := ⟨i 0, i 1, eq_ix2 i⟩
  rw [Read.val_main_v67_apply, h5, h10]
  rfl

end Cert.ReferenceIdeal.RefStage5

end
-- ==== Proof.Chain.lean ====
/-
  The tiled program's buffers, boundary by boundary, as the plain program's stage functions of the seven arguments.

  The run of the tiled program folds the buffer contents through its segments: a stretch of host operations applies
  them, a tiled stage replaces its arrays by what its write-backs leave. At every boundary the buffers that are used
  again later are named: the two edge lists with self loops and the per-edge factor (computed once, before the first
  stage, and read by both layers), the arguments still to be read, and the array the next segment consumes. Each
  tiled stage's output array is the whole-array function of Spec.lean of its input arrays (Blocks0 … Blocks5), which
  the plain program's stage also is (RefStage0 … RefStage5); the host stretches between them are read operation by
  operation. The rows padded on before a scaling stage never reach a result: the padding is cut off again right
  after it (SlicePad).
-/
import proofs.«139049_j20813411516894_2_alg».proof.Proof.Gen.KernelIdeal.Frame
import proofs.«139049_j20813411516894_2_alg».proof.Proof.RefRead
import proofs.«139049_j20813411516894_2_alg».proof.Proof.Spec
import proofs.«139049_j20813411516894_2_alg».proof.Proof.SlicePad
import proofs.«139049_j20813411516894_2_alg».proof.Proof.LibCat2
import proofs.«139049_j20813411516894_2_alg».proof.Proof.KernelPrefix
import proofs.«139049_j20813411516894_2_alg».proof.Proof.Blocks0
import proofs.«139049_j20813411516894_2_alg».proof.Proof.RefStage0
import proofs.«139049_j20813411516894_2_alg».proof.Proof.Blocks1
import proofs.«139049_j20813411516894_2_alg».proof.Proof.RefStage1
import proofs.«139049_j20813411516894_2_alg».proof.Proof.Blocks2
import proofs.«139049_j20813411516894_2_alg».proof.Proof.RefStage2
import proofs.«139049_j20813411516894_2_alg».proof.Proof.Blocks3
import proofs.«139049_j20813411516894_2_alg».proof.Proof.RefStage3
import proofs.«139049_j20813411516894_2_alg».proof.Proof.Blocks4
import proofs.«139049_j20813411516894_2_alg».proof.Proof.RefStage4
import proofs.«139049_j20813411516894_2_alg».proof.Proof.Blocks5
import proofs.«139049_j20813411516894_2_alg».proof.Proof.RefStage5
import Idealize.ShloMosaic.Lib.ValueLayout
import Idealize.ShloMosaic.Lib.StableHlo.Run

set_option maxRecDepth 65536

noncomputable section

namespace Cert.KernelIdeal.Chain

open Cert.KernelIdeal Cert.KernelIdeal.Gen Cert.ReferenceIdeal.Read Cert.KernelIdeal.KPrefix
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- Read a buffer after a stretch of host operations: unfold the stretch's fold down to the last tiled stage's exit
    (or the launch) and rewrite each operation's result, also under two-operand concatenations. -/
macro "host_read" : tactic => `(tactic| (
  dsimp only [W1, W2, W3, W5, W6, W7, W8, W10, W13, W14, W15, W16, W18,
    hostOps0, hostOps0_1, hostOps0_2, hostOps1, hostOps1_1, hostOps1_2, hostOps1_3, hostOps2,
    hostOps4, hostOps4_1, hostOps4_2, hostOps4_3, hostOps5]
  after_results_cat))

/-! ## The first product: x W1 -/

theorem w4_v32 : W4 m ρ c (Proc.devRef .tc main_v32) = val_main_v32 (F := Ideal) (A0 m c) (A3 m c) := by
  refine (W4_arr m ρ c 2).trans ?_
  rw [Cert.KernelIdeal.Blocks0.final0 (V3 m ρ) c]
  show Cert.Spec.matProd (W3 m ρ c (Proc.devRef .tc main_arg0)) (W3 m ρ c (Proc.devRef .tc main_arg3)) = _
  rw [w3_arg0, w3_arg3]
  exact (Cert.ReferenceIdeal.RefStage0.ref32 _ _).symm
theorem w4_v3 : W4 m ρ c (Proc.devRef .tc main_v3) = val_main_v3 (F := Ideal) (A1 m c) :=
  (W4_of_ne m ρ c main_v3 (by decide)).trans (w3_v3 m ρ c)
theorem w4_v6 : W4 m ρ c (Proc.devRef .tc main_v6) = val_main_v6 (F := Ideal) (A1 m c) :=
  (W4_of_ne m ρ c main_v6 (by decide)).trans (w3_v6 m ρ c)
theorem w4_v31 : W4 m ρ c (Proc.devRef .tc main_v31) = val_main_v31 (F := Ideal) (A1 m c) (A2 m c) :=
  (W4_of_ne m ρ c main_v31 (by decide)).trans (w3_v31 m ρ c)
theorem w4_arg4 : W4 m ρ c (Proc.devRef .tc main_arg4) = A4 m c := (W4_of_ne m ρ c main_arg4 (by decide)).trans (w3_arg4 m ρ c)
theorem w4_arg5 : W4 m ρ c (Proc.devRef .tc main_arg5) = A5 m c := (W4_of_ne m ρ c main_arg5 (by decide)).trans (w3_arg5 m ρ c)
theorem w4_arg6 : W4 m ρ c (Proc.devRef .tc main_arg6) = A6 m c := (W4_of_ne m ρ c main_arg6 (by decide)).trans (w3_arg6 m ρ c)

/-! ## Gathered rows and the normalisation, each padded to a whole number of blocks -/

/-! ## The padding calls' typed buffer names

The two operations of an outlined padding name their buffers with the values' types attached and carry contents to a
buffer's own type and back; each buffer's type is the value's by computation, so each carrying is the identity. -/
theorem of_c8 (h1 : main_c_8.ty = (⟨S_, .i32⟩ : BufTy)) (h2 h3) (v : (⟨S_, .i32⟩ : BufTy).Contents (Elt Ideal)) :
    (TRef.of (sig := sig) main_c_8 h1 h2 h3).ofBuf v = v := rfl
theorem to_c1v0 (h1 : main_call1_v0.ty = (⟨S_, .f32⟩ : BufTy)) (h2 h3) (v : (⟨S_, .f32⟩ : BufTy).Contents (Elt Ideal)) :
    (TRef.of (sig := sig) main_call1_v0 h1 h2 h3).toBuf v = v := rfl
theorem of_c1v0 (h1 : main_call1_v0.ty = (⟨S_, .f32⟩ : BufTy)) (h2 h3) (v : (⟨S_, .f32⟩ : BufTy).Contents (Elt Ideal)) :
    (TRef.of (sig := sig) main_call1_v0 h1 h2 h3).ofBuf v = v := rfl
theorem of_v39 (h1 : main_v39.ty = (⟨S3300000x16, .f32⟩ : BufTy)) (h2 h3) (v : (⟨S3300000x16, .f32⟩ : BufTy).Contents (Elt Ideal)) :
    (TRef.of (sig := sig) main_v39 h1 h2 h3).ofBuf v = v := rfl
theorem to_v40 (h1 : main_v40.ty = (⟨S3301376x16, .f32⟩ : BufTy)) (h2 h3) (v : (⟨S3301376x16, .f32⟩ : BufTy).Contents (Elt Ideal)) :
    (TRef.of (sig := sig) main_v40 h1 h2 h3).toBuf v = v := rfl
theorem of_c9 (h1 : main_c_9.ty = (⟨S_, .i32⟩ : BufTy)) (h2 h3) (v : (⟨S_, .i32⟩ : BufTy).Contents (Elt Ideal)) :
    (TRef.of (sig := sig) main_c_9 h1 h2 h3).ofBuf v = v := rfl
theorem to_c2v0 (h1 : main_call2_v0.ty = (⟨S_, .f32⟩ : BufTy)) (h2 h3) (v : (⟨S_, .f32⟩ : BufTy).Contents (Elt Ideal)) :
    (TRef.of (sig := sig) main_call2_v0 h1 h2 h3).toBuf v = v := rfl
theorem of_c2v0 (h1 : main_call2_v0.ty = (⟨S_, .f32⟩ : BufTy)) (h2 h3) (v : (⟨S_, .f32⟩ : BufTy).Contents (Elt Ideal)) :
    (TRef.of (sig := sig) main_call2_v0 h1 h2 h3).ofBuf v = v := rfl
theorem of_v31 (h1 : main_v31.ty = (⟨S3300000, .f32⟩ : BufTy)) (h2 h3) (v : (⟨S3300000, .f32⟩ : BufTy).Contents (Elt Ideal)) :
    (TRef.of (sig := sig) main_v31 h1 h2 h3).ofBuf v = v := rfl
theorem to_v41 (h1 : main_v41.ty = (⟨S3301376, .f32⟩ : BufTy)) (h2 h3) (v : (⟨S3301376, .f32⟩ : BufTy).Contents (Elt Ideal)) :
    (TRef.of (sig := sig) main_v41 h1 h2 h3).toBuf v = v := rfl
theorem of_c13 (h1 : main_c_13.ty = (⟨S_, .i32⟩ : BufTy)) (h2 h3) (v : (⟨S_, .i32⟩ : BufTy).Contents (Elt Ideal)) :
    (TRef.of (sig := sig) main_c_13 h1 h2 h3).ofBuf v = v := rfl
theorem to_c3v0 (h1 : main_call3_v0.ty = (⟨S_, .f32⟩ : BufTy)) (h2 h3) (v : (⟨S_, .f32⟩ : BufTy).Contents (Elt Ideal)) :
    (TRef.of (sig := sig) main_call3_v0 h1 h2 h3).toBuf v = v := rfl
theorem of_c3v0 (h1 : main_call3_v0.ty = (⟨S_, .f32⟩ : BufTy)) (h2 h3) (v : (⟨S_, .f32⟩ : BufTy).Contents (Elt Ideal)) :
    (TRef.of (sig := sig) main_call3_v0 h1 h2 h3).ofBuf v = v := rfl
theorem of_v56 (h1 : main_v56.ty = (⟨S3300000x40, .f32⟩ : BufTy)) (h2 h3) (v : (⟨S3300000x40, .f32⟩ : BufTy).Contents (Elt Ideal)) :
    (TRef.of (sig := sig) main_v56 h1 h2 h3).ofBuf v = v := rfl
theorem to_v57 (h1 : main_v57.ty = (⟨S3301376x40, .f32⟩ : BufTy)) (h2 h3) (v : (⟨S3301376x40, .f32⟩ : BufTy).Contents (Elt Ideal)) :
    (TRef.of (sig := sig) main_v57 h1 h2 h3).toBuf v = v := rfl
theorem of_c14 (h1 : main_c_14.ty = (⟨S_, .i32⟩ : BufTy)) (h2 h3) (v : (⟨S_, .i32⟩ : BufTy).Contents (Elt Ideal)) :
    (TRef.of (sig := sig) main_c_14 h1 h2 h3).ofBuf v = v := rfl
theorem to_c4v0 (h1 : main_call4_v0.ty = (⟨S_, .f32⟩ : BufTy)) (h2 h3) (v : (⟨S_, .f32⟩ : BufTy).Contents (Elt Ideal)) :
    (TRef.of (sig := sig) main_call4_v0 h1 h2 h3).toBuf v = v := rfl
theorem of_c4v0 (h1 : main_call4_v0.ty = (⟨S_, .f32⟩ : BufTy)) (h2 h3) (v : (⟨S_, .f32⟩ : BufTy).Contents (Elt Ideal)) :
    (TRef.of (sig := sig) main_call4_v0 h1 h2 h3).ofBuf v = v := rfl
theorem to_v58 (h1 : main_v58.ty = (⟨S3301376, .f32⟩ : BufTy)) (h2 h3) (v : (⟨S3301376, .f32⟩ : BufTy).Contents (Elt Ideal)) :
    (TRef.of (sig := sig) main_v58 h1 h2 h3).toBuf v = v := rfl

macro "strip_casts" : tactic => `(tactic| (
  repeat (first | rewrite [of_c8] | rewrite [to_c1v0] | rewrite [of_c1v0] | rewrite [of_v39] | rewrite [to_v40] | rewrite [of_c9] | rewrite [to_c2v0] | rewrite [of_c2v0] | rewrite [of_v31] | rewrite [to_v41] | rewrite [of_c13] | rewrite [to_c3v0] | rewrite [of_c3v0] | rewrite [of_v56] | rewrite [to_v57] | rewrite [of_c14] | rewrite [to_c4v0] | rewrite [of_c4v0] | rewrite [to_v58])
  all_goals first | rfl | decide))

/-- The padding value: the integer zero converted to a float (never read back: the padding rows are cut off). -/
abbrev padZ : (⟨S_, .f32⟩ : BufTy).Contents (Elt Ideal) := sitofp (F := Ideal) .f32 (constantI S_ 32 0#32)

theorem w8_v40 : W8 m ρ c (Proc.devRef .tc main_v40)
    = pad S3301376x16 ![0, 0] ![1376, 0] ![0, 0] (val_main_v39 (F := Ideal) (A0 m c) (A1 m c) (A3 m c)) padZ
        pads_S3300000x16_S3301376x16_013760_000 h_S_ := by
  host_read
  rw [w4_v32, w4_v3]
  simp only [val_main_v39, val_main_v38, val_main_v37, val_main_v36, val_main_v35, val_main_v34, val_main_v33, val_main_c_7, val_main_c_6]
  generalize val_main_v32 (F := Ideal) (A0 m c) (A3 m c) = h1
  generalize val_main_v3 (F := Ideal) (A1 m c) = row
  strip_casts
theorem w8_v41 : W8 m ρ c (Proc.devRef .tc main_v41)
    = pad S3301376 ![0] ![1376] ![0] (val_main_v31 (F := Ideal) (A1 m c) (A2 m c)) padZ pads_S3300000_S3301376_013760 h_S_ := by
  host_read
  rw [w4_v31]
  generalize val_main_v31 (F := Ideal) (A1 m c) (A2 m c) = nrm
  strip_casts
theorem w8_v3 : W8 m ρ c (Proc.devRef .tc main_v3) = val_main_v3 (F := Ideal) (A1 m c) := by host_read; exact w4_v3 m ρ c
theorem w8_v6 : W8 m ρ c (Proc.devRef .tc main_v6) = val_main_v6 (F := Ideal) (A1 m c) := by host_read; exact w4_v6 m ρ c
theorem w8_v31 : W8 m ρ c (Proc.devRef .tc main_v31) = val_main_v31 (F := Ideal) (A1 m c) (A2 m c) := by host_read; exact w4_v31 m ρ c
theorem w8_arg4 : W8 m ρ c (Proc.devRef .tc main_arg4) = A4 m c := by host_read; exact w4_arg4 m ρ c
theorem w8_arg5 : W8 m ρ c (Proc.devRef .tc main_arg5) = A5 m c := by host_read; exact w4_arg5 m ρ c
theorem w8_arg6 : W8 m ρ c (Proc.devRef .tc main_arg6) = A6 m c := by host_read; exact w4_arg6 m ρ c

/-! ## The first scaling -/

theorem w9_v42 : W9 m ρ c (Proc.devRef .tc main_v42)
    = Cert.Spec.rowScale
        (pad S3301376x16 ![0, 0] ![1376, 0] ![0, 0] (val_main_v39 (F := Ideal) (A0 m c) (A1 m c) (A3 m c)) padZ
          pads_S3300000x16_S3301376x16_013760_000 h_S_)
        (pad S3301376 ![0] ![1376] ![0] (val_main_v31 (F := Ideal) (A1 m c) (A2 m c)) padZ pads_S3300000_S3301376_013760 h_S_) := by
  refine (W9_arr m ρ c 2).trans ?_
  rw [Cert.KernelIdeal.Blocks1.final1 (V8 m ρ) c]
  show Cert.Spec.rowScale (W8 m ρ c (Proc.devRef .tc main_v40)) (W8 m ρ c (Proc.devRef .tc main_v41)) = _
  rw [w8_v40, w8_v41]
theorem w9_v3 : W9 m ρ c (Proc.devRef .tc main_v3) = val_main_v3 (F := Ideal) (A1 m c) := (W9_of_ne m ρ c main_v3 (by decide)).trans (w8_v3 m ρ c)
theorem w9_v6 : W9 m ρ c (Proc.devRef .tc main_v6) = val_main_v6 (F := Ideal) (A1 m c) := (W9_of_ne m ρ c main_v6 (by decide)).trans (w8_v6 m ρ c)
theorem w9_v31 : W9 m ρ c (Proc.devRef .tc main_v31) = val_main_v31 (F := Ideal) (A1 m c) (A2 m c) := (W9_of_ne m ρ c main_v31 (by decide)).trans (w8_v31 m ρ c)
theorem w9_arg4 : W9 m ρ c (Proc.devRef .tc main_arg4) = A4 m c := (W9_of_ne m ρ c main_arg4 (by decide)).trans (w8_arg4 m ρ c)
theorem w9_arg5 : W9 m ρ c (Proc.devRef .tc main_arg5) = A5 m c := (W9_of_ne m ρ c main_arg5 (by decide)).trans (w8_arg5 m ρ c)
theorem w9_arg6 : W9 m ρ c (Proc.devRef .tc main_arg6) = A6 m c := (W9_of_ne m ρ c main_arg6 (by decide)).trans (w8_arg6 m ρ c)

/-! ## The first aggregation (padding cut off, messages summed per target node) and the bias as a row -/

theorem w10_v46 : W10 m ρ c (Proc.devRef .tc main_v46)
    = val_main_v45 (F := Ideal) (A0 m c) (A1 m c) (A2 m c) (A3 m c) := by
  host_read
  rw [w9_v42, w9_v6,
    Cert.SlicePad.slice_rowScale_pad (n := 3300000) (N := 3301376) (d := 16) (p := 1376) (by decide) _ _ padZ padZ
      pads_S3300000x16_S3301376x16_013760_000 h_S_ pads_S3300000_S3301376_013760 h_S_ slices_S3301376x16_S3300000x16_0_0,
    ← Cert.ReferenceIdeal.RefStage1.ref42]
  simp only [val_main_v45, val_main_v44, val_main_v43, val_main_cst_8]
  generalize val_main_v42 (F := Ideal) (A0 m c) (A1 m c) (A2 m c) (A3 m c) = msg
  generalize val_main_v6 (F := Ideal) (A1 m c) = col
  rfl
theorem w10_v47 : W10 m ρ c (Proc.devRef .tc main_v47) = shapeCast S1x16 (A4 m c) shapeCasts_S16_S1x16 := by
  host_read
  rw [w9_arg4]
  rfl
theorem w10_v3 : W10 m ρ c (Proc.devRef .tc main_v3) = val_main_v3 (F := Ideal) (A1 m c) := by host_read; exact w9_v3 m ρ c
theorem w10_v6 : W10 m ρ c (Proc.devRef .tc main_v6) = val_main_v6 (F := Ideal) (A1 m c) := by host_read; exact w9_v6 m ρ c
theorem w10_v31 : W10 m ρ c (Proc.devRef .tc main_v31) = val_main_v31 (F := Ideal) (A1 m c) (A2 m c) := by host_read; exact w9_v31 m ρ c
theorem w10_arg5 : W10 m ρ c (Proc.devRef .tc main_arg5) = A5 m c := by host_read; exact w9_arg5 m ρ c
theorem w10_arg6 : W10 m ρ c (Proc.devRef .tc main_arg6) = A6 m c := by host_read; exact w9_arg6 m ρ c

/-- A vector stored as a one-row array, read at (0, q), is the vector at q. -/
theorem row_of_vec {a : ℕ} (x : (⟨1, ![a]⟩ : Shape).Idx → EReal) (h : (⟨1, ![a]⟩ : Shape).ShapeCasts ⟨2, ![1, a]⟩) :
    shapeCast ⟨2, ![1, a]⟩ x h = fun i => x (ix1 (i 1)) := by
  funext i
  rw [eq_ix2 i]
  exact shapeCast_a_1a_apply x h _ _

/-! ## Bias and clamp, then the second product -/

theorem w11_v48 : W11 m ρ c (Proc.devRef .tc main_v48)
    = val_main_v49 (F := Ideal) (A0 m c) (A1 m c) (A2 m c) (A3 m c) (A4 m c) := by
  refine (W11_arr m ρ c 2).trans ?_
  rw [Cert.KernelIdeal.Blocks2.final2 (V10 m ρ) c]
  show Cert.Spec.biasRelu (W10 m ρ c (Proc.devRef .tc main_v46)) (W10 m ρ c (Proc.devRef .tc main_v47)) = _
  rw [w10_v46, w10_v47, Cert.ReferenceIdeal.RefStage2.ref49]
  exact congrArg (Cert.Spec.biasRelu _) (row_of_vec (A4 m c) shapeCasts_S16_S1x16)
theorem w11_v3 : W11 m ρ c (Proc.devRef .tc main_v3) = val_main_v3 (F := Ideal) (A1 m c) := (W11_of_ne m ρ c main_v3 (by decide)).trans (w10_v3 m ρ c)
theorem w11_v6 : W11 m ρ c (Proc.devRef .tc main_v6) = val_main_v6 (F := Ideal) (A1 m c) := (W11_of_ne m ρ c main_v6 (by decide)).trans (w10_v6 m ρ c)
theorem w11_v31 : W11 m ρ c (Proc.devRef .tc main_v31) = val_main_v31 (F := Ideal) (A1 m c) (A2 m c) := (W11_of_ne m ρ c main_v31 (by decide)).trans (w10_v31 m ρ c)
theorem w11_arg5 : W11 m ρ c (Proc.devRef .tc main_arg5) = A5 m c := (W11_of_ne m ρ c main_arg5 (by decide)).trans (w10_arg5 m ρ c)
theorem w11_arg6 : W11 m ρ c (Proc.devRef .tc main_arg6) = A6 m c := (W11_of_ne m ρ c main_arg6 (by decide)).trans (w10_arg6 m ρ c)

theorem w12_v49 : W12 m ρ c (Proc.devRef .tc main_v49)
    = val_main_v50 (F := Ideal) (A0 m c) (A1 m c) (A2 m c) (A3 m c) (A4 m c) (A5 m c) := by
  refine (W12_arr m ρ c 2).trans ?_
  rw [Cert.KernelIdeal.Blocks3.final3 (V11 m ρ) c]
  show Cert.Spec.matProd (W11 m ρ c (Proc.devRef .tc main_v48)) (W11 m ρ c (Proc.devRef .tc main_arg5)) = _
  rw [w11_v48, w11_arg5]
  exact (Cert.ReferenceIdeal.RefStage3.ref50 _ _ _ _ _ _).symm
theorem w12_v3 : W12 m ρ c (Proc.devRef .tc main_v3) = val_main_v3 (F := Ideal) (A1 m c) := (W12_of_ne m ρ c main_v3 (by decide)).trans (w11_v3 m ρ c)
theorem w12_v6 : W12 m ρ c (Proc.devRef .tc main_v6) = val_main_v6 (F := Ideal) (A1 m c) := (W12_of_ne m ρ c main_v6 (by decide)).trans (w11_v6 m ρ c)
theorem w12_v31 : W12 m ρ c (Proc.devRef .tc main_v31) = val_main_v31 (F := Ideal) (A1 m c) (A2 m c) := (W12_of_ne m ρ c main_v31 (by decide)).trans (w11_v31 m ρ c)
theorem w12_arg6 : W12 m ρ c (Proc.devRef .tc main_arg6) = A6 m c := (W12_of_ne m ρ c main_arg6 (by decide)).trans (w11_arg6 m ρ c)

/-! ## The second layer's gathered rows, padded; the second scaling; the second aggregation -/

theorem w16_v57 : W16 m ρ c (Proc.devRef .tc main_v57)
    = pad S3301376x40 ![0, 0] ![1376, 0] ![0, 0]
        (val_main_v57 (F := Ideal) (A0 m c) (A1 m c) (A2 m c) (A3 m c) (A4 m c) (A5 m c)) padZ
        pads_S3300000x40_S3301376x40_013760_000 h_S_ := by
  host_read
  rw [w12_v49, w12_v3]
  simp only [val_main_v57, val_main_v56, val_main_v55, val_main_v54, val_main_v53, val_main_v52, val_main_v51, val_main_c_10, val_main_c_9]
  generalize val_main_v50 (F := Ideal) (A0 m c) (A1 m c) (A2 m c) (A3 m c) (A4 m c) (A5 m c) = h2
  generalize val_main_v3 (F := Ideal) (A1 m c) = row
  strip_casts
theorem w16_v58 : W16 m ρ c (Proc.devRef .tc main_v58)
    = pad S3301376 ![0] ![1376] ![0] (val_main_v31 (F := Ideal) (A1 m c) (A2 m c)) padZ pads_S3300000_S3301376_013760 h_S_ := by
  host_read
  rw [w12_v31]
  generalize val_main_v31 (F := Ideal) (A1 m c) (A2 m c) = nrm
  strip_casts
theorem w16_v6 : W16 m ρ c (Proc.devRef .tc main_v6) = val_main_v6 (F := Ideal) (A1 m c) := by host_read; exact w12_v6 m ρ c
theorem w16_arg6 : W16 m ρ c (Proc.devRef .tc main_arg6) = A6 m c := by host_read; exact w12_arg6 m ρ c

theorem w17_v59 : W17 m ρ c (Proc.devRef .tc main_v59)
    = Cert.Spec.rowScale
        (pad S3301376x40 ![0, 0] ![1376, 0] ![0, 0]
          (val_main_v57 (F := Ideal) (A0 m c) (A1 m c) (A2 m c) (A3 m c) (A4 m c) (A5 m c)) padZ
          pads_S3300000x40_S3301376x40_013760_000 h_S_)
        (pad S3301376 ![0] ![1376] ![0] (val_main_v31 (F := Ideal) (A1 m c) (A2 m c)) padZ pads_S3300000_S3301376_013760 h_S_) := by
  refine (W17_arr m ρ c 2).trans ?_
  rw [Cert.KernelIdeal.Blocks4.final4 (V16 m ρ) c]
  show Cert.Spec.rowScale (W16 m ρ c (Proc.devRef .tc main_v57)) (W16 m ρ c (Proc.devRef .tc main_v58)) = _
  rw [w16_v57, w16_v58]
theorem w17_v6 : W17 m ρ c (Proc.devRef .tc main_v6) = val_main_v6 (F := Ideal) (A1 m c) := (W17_of_ne m ρ c main_v6 (by decide)).trans (w16_v6 m ρ c)
theorem w17_arg6 : W17 m ρ c (Proc.devRef .tc main_arg6) = A6 m c := (W17_of_ne m ρ c main_arg6 (by decide)).trans (w16_arg6 m ρ c)

theorem w18_v63 : W18 m ρ c (Proc.devRef .tc main_v63)
    = val_main_v63 (F := Ideal) (A0 m c) (A1 m c) (A2 m c) (A3 m c) (A4 m c) (A5 m c) := by
  host_read
  rw [w17_v59, w17_v6,
    Cert.SlicePad.slice_rowScale_pad (n := 3300000) (N := 3301376) (d := 40) (p := 1376) (by decide) _ _ padZ padZ
      pads_S3300000x40_S3301376x40_013760_000 h_S_ pads_S3300000_S3301376_013760 h_S_ slices_S3301376x40_S3300000x40_0_0,
    ← Cert.ReferenceIdeal.RefStage4.ref60]
  simp only [val_main_v63, val_main_v62, val_main_v61, val_main_cst_11]
  generalize val_main_v60 (F := Ideal) (A0 m c) (A1 m c) (A2 m c) (A3 m c) (A4 m c) (A5 m c) = msg
  generalize val_main_v6 (F := Ideal) (A1 m c) = col
  rfl
theorem w18_v64 : W18 m ρ c (Proc.devRef .tc main_v64) = shapeCast S1x40 (A6 m c) shapeCasts_S40_S1x40 := by
  host_read
  rw [w17_arg6]
  rfl

/-! ## Bias and the rows' log-softmax: the result -/

theorem w19_v65 : W19 m ρ c (Proc.devRef .tc main_v65)
    = val_main_v67 (F := Ideal) (A0 m c) (A1 m c) (A2 m c) (A3 m c) (A4 m c) (A5 m c) (A6 m c) := by
  refine (W19_arr m ρ c 2).trans ?_
  rw [Cert.KernelIdeal.Blocks5.final5 (V18 m ρ) c]
  show Cert.Spec.biasLogSoftmax (W18 m ρ c (Proc.devRef .tc main_v63)) (W18 m ρ c (Proc.devRef .tc main_v64)) = _
  rw [w18_v63, w18_v64, Cert.ReferenceIdeal.RefStage5.ref67]
  exact congrArg (Cert.Spec.biasLogSoftmax _) (row_of_vec (A6 m c) shapeCasts_S40_S1x40)

end Cert.KernelIdeal.Chain
end
-- ==== Proof.lean ====
/-
  A two-layer graph convolution with symmetric normalisation and self loops, ending in a row-wise log-softmax: the
  tiled program against the plain one.

  Both programs build the same edge lists (every edge, then one self loop per node), the same edge weights (the given
  ones, then ones), the same degrees (weights summed per target node) and the same normalisation
  norm(e) = dinv(row e) * w(e) * dinv(col e) with dinv = 1/sqrt(deg) where deg > 0 and 0 elsewhere; these host
  operations are the same in both texts. The tiled program then computes, stage by stage,
    h1 = x W1 in blocks of 5000 rows (operands cast to a narrower float format first: the identity on the extended
         reals; a block's product into a zero accumulator is the plain sum over the contracted axis),
    the gathered rows h1[row e] padded to a whole number of 8192-row blocks, scaled row by row by the padded norm,
         the padding cut off again (the padding is never read back: SlicePad),
    the messages summed per target node, plus the bias b1, clamped below at 0, in blocks of 5000 rows,
    h2 = (that) W2, gathered, padded, scaled, cut, summed per target node as before,
    plus the bias b2, and each row's log-softmax z - max z - log (sum exp (z - max z)),
  where the plain program has one host operation (or a short chain of them) for each stage. Stage by stage the array a
  tiled stage leaves is the function of Spec.lean of its operand arrays (Blocks0 … Blocks5: what point t writes back
  is block t of that function, and the blocks tile the array), and the plain program's stage is the same function
  (RefStage0 … RefStage5); Chain.lean carries the equalities from the launch memory to the result through the host
  operations between the stages, which are the same operations in both programs, and RefChain.lean reads the plain
  program's run the same way, in four stretches. No law beyond reordering finite sums
  and maxima is used, so the inputs' finiteness is never opened.

  The three frames are the generated ones (the plain program's is its run with the result dropped); the idealization
  rewrote nothing, so its conjunct is trivial.
-/
import proofs.«139049_j20813411516894_2_alg».proof.Defs
import proofs.«139049_j20813411516894_2_alg».proof.Proof.Gen.Kernel
import proofs.«139049_j20813411516894_2_alg».proof.Proof.Gen.Kernel.Skeleton
import proofs.«139049_j20813411516894_2_alg».proof.Proof.Gen.Kernel.Launch
import proofs.«139049_j20813411516894_2_alg».proof.Proof.Gen.Kernel.Points
import proofs.«139049_j20813411516894_2_alg».proof.Proof.Gen.Kernel.Frame
import proofs.«139049_j20813411516894_2_alg».proof.Proof.Gen.KernelIdeal
import proofs.«139049_j20813411516894_2_alg».proof.Proof.Gen.KernelIdeal.Skeleton
import proofs.«139049_j20813411516894_2_alg».proof.Proof.Gen.KernelIdeal.Launch
import proofs.«139049_j20813411516894_2_alg».proof.Proof.Gen.KernelIdeal.Points
import proofs.«139049_j20813411516894_2_alg».proof.Proof.Gen.KernelIdeal.Frame
import proofs.«139049_j20813411516894_2_alg».proof.Proof.Gen.ReferenceIdeal
import proofs.«139049_j20813411516894_2_alg».proof.Proof.Gen.Pre_finite_inputs
import proofs.«139049_j20813411516894_2_alg».proof.Proof.RefRun
import proofs.«139049_j20813411516894_2_alg».proof.Proof.RefRead
import proofs.«139049_j20813411516894_2_alg».proof.Proof.RefChain
import proofs.«139049_j20813411516894_2_alg».proof.Proof.KernelRun
import proofs.«139049_j20813411516894_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefChain.run m ρ)

/-- From memories that agree on the arguments both programs end with the result array at the plain program's last
    stage of the arguments: the tiled one by the chain of stage equalities, the plain one by its run read in stretches. -/
theorem algebraic : Cert.algebraic_KernelIdeal_ReferenceIdeal := by
  intro m ρ m' ρ' _ hagree
  refine ⟨fun c => Cert.ReferenceIdeal.Read.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.w19_v65 m ρ c), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.RefChain.run m' ρ')
    obtain ⟨h0, h1, h2, h3, h4, h5, h6⟩ := hagree c
    dsimp only [Cert.ReferenceIdeal.RefPrefix.B0, Cert.ReferenceIdeal.RefPrefix.B1, Cert.ReferenceIdeal.RefPrefix.B2,
      Cert.ReferenceIdeal.RefPrefix.B3, Cert.ReferenceIdeal.RefPrefix.B4, Cert.ReferenceIdeal.RefPrefix.B5,
      Cert.ReferenceIdeal.RefPrefix.B6]
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
